-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S1024x3072 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S4096x1024 : Shape := ⟨2, ![4096, 1024]⟩
abbrev S4096x3072 : Shape := ⟨2, ![4096, 3072]⟩
abbrev S512x1024 : Shape := ⟨2, ![512, 1024]⟩
abbrev S2x2048x3072 : Shape := ⟨3, ![2, 2048, 3072]⟩
abbrev S1x1024 : Shape := ⟨2, ![1, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x3072, .bf16⟩
  | .hbm, ⟨6, _⟩ => ⟨S2x2048x3072, .bf16⟩
  | .hbm, ⟨7, _⟩ => ⟨S1024x1024, .bf16⟩
  | .hbm, ⟨8, _⟩ => ⟨S1x1024, .f32⟩
  | .hbm, ⟨9, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .bf16⟩
  | .local _ .vmem, ⟨4, _⟩ => ⟨S512x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1024x1024, .bf16⟩
  | .local _ .vmem, ⟨12, _⟩ => ⟨S1x1024, .f32⟩
  | .local _ .vmem, ⟨13, _⟩ => ⟨S1x256x1024, .f32⟩
  | .local _ .vmem, ⟨14, _⟩ => ⟨S1x256x1024, .f32⟩
  | .local _ .vmem, ⟨15, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  shapeCasts_S1024_S1x1024 : S1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x64 : S256x1024.Slices ![0, 0] S256x64
  slices_S2048x1024_o0_0_S2048x64 : S2048x1024.Slices ![0, 0] S2048x64
  reduces_S256x2048_S256 : S256x2048.Reduces [1] S256
  shapeCasts_S256_S256x1 : S256.ShapeCasts S256x1
  broadcasts_S256x1_S256x2048 : S256x1.Broadcasts S256x2048
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  slices_S256x1024_o0_64_S256x64 : S256x1024.Slices ![0, 64] S256x64
  slices_S2048x1024_o0_64_S2048x64 : S2048x1024.Slices ![0, 64] S2048x64
  inb_S256x1024_S256x64_0_64 : ∀ a, (![0, 64] : Fin 2 → Nat) a + S256x64.size a ≤ S256x1024.size a
  slices_S256x1024_o0_128_S256x64 : S256x1024.Slices ![0, 128] S256x64
  slices_S2048x1024_o0_128_S2048x64 : S2048x1024.Slices ![0, 128] S2048x64
  inb_S256x1024_S256x64_0_128 : ∀ a, (![0, 128] : Fin 2 → Nat) a + S256x64.size a ≤ S256x1024.size a
  slices_S256x1024_o0_192_S256x64 : S256x1024.Slices ![0, 192] S256x64
  slices_S2048x1024_o0_192_S2048x64 : S2048x1024.Slices ![0, 192] S2048x64
  inb_S256x1024_S256x64_0_192 : ∀ a, (![0, 192] : Fin 2 → Nat) a + S256x64.size a ≤ S256x1024.size a
  slices_S256x1024_o0_256_S256x64 : S256x1024.Slices ![0, 256] S256x64
  slices_S2048x1024_o0_256_S2048x64 : S2048x1024.Slices ![0, 256] S2048x64
  inb_S256x1024_S256x64_0_256 : ∀ a, (![0, 256] : Fin 2 → Nat) a + S256x64.size a ≤ S256x1024.size a
  slices_S256x1024_o0_320_S256x64 : S256x1024.Slices ![0, 320] S256x64
  slices_S2048x1024_o0_320_S2048x64 : S2048x1024.Slices ![0, 320] S2048x64
  inb_S256x1024_S256x64_0_320 : ∀ a, (![0, 320] : Fin 2 → Nat) a + S256x64.size a ≤ S256x1024.size a
  slices_S256x1024_o0_384_S256x64 : S256x1024.Slices ![0, 384] S256x64
  slices_S2048x1024_o0_384_S2048x64 : S2048x1024.Slices ![0, 384] S2048x64
  inb_S256x1024_S256x64_0_384 : ∀ a, (![0, 384] : Fin 2 → Nat) a + S256x64.size a ≤ S256x1024.size a
  slices_S256x1024_o0_448_S256x64 : S256x1024.Slices ![0, 448] S256x64
  slices_S2048x1024_o0_448_S2048x64 : S2048x1024.Slices ![0, 448] S2048x64
  inb_S256x1024_S256x64_0_448 : ∀ a, (![0, 448] : Fin 2 → Nat) a + S256x64.size a ≤ S256x1024.size a
  slices_S256x1024_o0_512_S256x64 : S256x1024.Slices ![0, 512] S256x64
  slices_S2048x1024_o0_512_S2048x64 : S2048x1024.Slices ![0, 512] S2048x64
  inb_S256x1024_S256x64_0_512 : ∀ a, (![0, 512] : Fin 2 → Nat) a + S256x64.size a ≤ S256x1024.size a
  slices_S256x1024_o0_576_S256x64 : S256x1024.Slices ![0, 576] S256x64
  slices_S2048x1024_o0_576_S2048x64 : S2048x1024.Slices ![0, 576] S2048x64
  inb_S256x1024_S256x64_0_576 : ∀ a, (![0, 576] : Fin 2 → Nat) a + S256x64.size a ≤ S256x1024.size a
  slices_S256x1024_o0_640_S256x64 : S256x1024.Slices ![0, 640] S256x64
  slices_S2048x1024_o0_640_S2048x64 : S2048x1024.Slices ![0, 640] S2048x64
  inb_S256x1024_S256x64_0_640 : ∀ a, (![0, 640] : Fin 2 → Nat) a + S256x64.size a ≤ S256x1024.size a
  slices_S256x1024_o0_704_S256x64 : S256x1024.Slices ![0, 704] S256x64
  slices_S2048x1024_o0_704_S2048x64 : S2048x1024.Slices ![0, 704] S2048x64
  inb_S256x1024_S256x64_0_704 : ∀ a, (![0, 704] : Fin 2 → Nat) a + S256x64.size a ≤ S256x1024.size a
  slices_S256x1024_o0_768_S256x64 : S256x1024.Slices ![0, 768] S256x64
  slices_S2048x1024_o0_768_S2048x64 : S2048x1024.Slices ![0, 768] S2048x64
  inb_S256x1024_S256x64_0_768 : ∀ a, (![0, 768] : Fin 2 → Nat) a + S256x64.size a ≤ S256x1024.size a
  slices_S256x1024_o0_832_S256x64 : S256x1024.Slices ![0, 832] S256x64
  slices_S2048x1024_o0_832_S2048x64 : S2048x1024.Slices ![0, 832] S2048x64
  inb_S256x1024_S256x64_0_832 : ∀ a, (![0, 832] : Fin 2 → Nat) a + S256x64.size a ≤ S256x1024.size a
  slices_S256x1024_o0_896_S256x64 : S256x1024.Slices ![0, 896] S256x64
  slices_S2048x1024_o0_896_S2048x64 : S2048x1024.Slices ![0, 896] S2048x64
  inb_S256x1024_S256x64_0_896 : ∀ a, (![0, 896] : Fin 2 → Nat) a + S256x64.size a ≤ S256x1024.size a
  slices_S256x1024_o0_960_S256x64 : S256x1024.Slices ![0, 960] S256x64
  slices_S2048x1024_o0_960_S2048x64 : S2048x1024.Slices ![0, 960] S2048x64
  inb_S256x1024_S256x64_0_960 : ∀ a, (![0, 960] : Fin 2 → Nat) a + S256x64.size a ≤ S256x1024.size a
  inb_S256x1024_S256x1024_0_0 : ∀ a, (![0, 0] : Fin 2 → Nat) a + S256x1024.size a ≤ S256x1024.size a
  h_S256x1024 : 0 < S256x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S2x2048x3072.size a
  hwx1_0 : ∀ i : grid1.Coords, EltTy.bits .bf16 = 32 ∨ (Rect.block (s := S2x2048x3072) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S2x2048x3072.size a
  hwx1_1 : ∀ i : grid1.Coords, EltTy.bits .bf16 = 32 ∨ (Rect.block (s := S2x2048x3072) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S2x2048x3072.size a
  hwx1_2 : ∀ i : grid1.Coords, EltTy.bits .bf16 = 32 ∨ (Rect.block (s := S2x2048x3072) S1x2048x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S2x2048x1024.size a
  hwx1_5 : ∀ i : grid1.Coords, EltTy.bits .f32 = 32 ∨ (Rect.block (s := S2x2048x1024) S1x256x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.Bits.Body0.lean ====
/-
  The projection kernel's body, for the separation-logic run of the program.

  At a grid point the body is handed a [512, 1024] block of the flattened input and a [1024, 1024] block of the
  projection weights, multiplies them, and stores the [512, 1024] product into the output block. What it leaves
  in the output buffer is therefore one store over the whole buffer, whose value is a function of the two input
  blocks. The pipeline data say: the arrays are as the region finds them, each input buffer holds its block at
  every point, and the output buffer holds that function of them; the body's triple is by symbolic execution.
-/
import proofs.«110760_j64003602645285_2_alg».proof.Proof.Gen.Kernel.Launch
import proofs.«110760_j64003602645285_2_alg».proof.Proof.Gen.Kernel.Skeleton
import proofs.«110760_j64003602645285_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, fetched there or not: where the pipeline
    does not fetch, the block index has not moved since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole [512, 1024] buffer as a rectangle: the body's loads and its one store go through it. -/
abbrev whole0 : Rect S512x1024 := Rect.unit (s := S512x1024) ![0, 0] S512x1024.size inb_S512x1024_S512x1024_0_0
/-- The whole weights buffer. -/
abbrev wholeW0 : Rect S1024x1024 := Rect.unit (s := S1024x1024) ![0, 0] S1024x1024.size inb_S1024x1024_S1024x1024_0_0

/-- What the body leaves in the output buffer: its one store, of the product of the two blocks. -/
def tile0 (x0 : Vec F S512x1024 .f32) (x1 : Vec F S1024x1024 .f32) : Vec F S512x1024 .bf16 :=
  View.canon [⟨whole0, k0_pay1 (View.ld x0 whole0) (View.ld x1 wholeW0)⟩]

/-- The store covers the buffer. -/
theorem tile0_cover (p0 : Vec F S512x1024 .bf16) (y : S512x1024.Idx) :
    ∃ pc ∈ ([⟨whole0, p0⟩] : List (View.Piece (Elt F) S512x1024 .bf16)), y ∈ pc.1.set :=
  View.cover_of_tiled [⟨whole0, p0⟩] S512x1024.size (by rfl) y

set_option maxHeartbeats 1000000 in
/-- The body on whole buffers: the inputs' at read contents x0, x1 and the output's at anything; it ends with the
    inputs as they were and the output at `tile0 x0 x1`. -/
theorem body0_triple (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tile0 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile0_cover _)

/-- The projection pipeline's data on core c: arrays as found; after the body each input buffer at its block
    and the output buffer at the product tile; the invariant is the scoped rest and the generator register,
    untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => tile0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = tile0 (blk0 V c 0 t) (blk0 V c 1 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- What the body is called with at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem body0_obligation (c : Dev nD) : BodyObligation (dat0 (F := F) V c) (defs₀ (F := F)) Variants.none () Set.univ := fun t => by
  rw [bigSep_W0, bigSep_W0]
  exact body0_at V c t

end Cert.Kernel.Hand

end
-- ==== Proof.Bits.Body1.lean ====
/-
  The attention kernel's body, for the separation-logic run of the program.

  At a grid point the body is handed a [1, 256, 1024] block of queries, the [1, 2048, 1024] blocks of keys and of
  values of the same batch entry, the output weights [1024, 1024] and the bias [1, 1024]. Head by head it stores
  a [256, 64] result into columns [64 h, 64 h + 64) of a scratch buffer [256, 1024]; the sixteen stores tile the
  scratch, so the scratch read back whole is a function of the three blocks alone, whatever it held before. That
  matrix times the weights plus the bias is stored over the whole output buffer. The pipeline data say: arrays as
  found, every input buffer at its block at every point, the output buffer at that function of the five blocks;
  the scratch lives in the invariant, at contents nobody names. Queries, keys and values are three windows on ONE
  array, so the three hold it at three disjoint shares that compose to the full one.
-/
import proofs.«110760_j64003602645285_2_alg».proof.Proof.Gen.Kernel.Launch
import proofs.«110760_j64003602645285_2_alg».proof.Proof.Gen.Kernel.Skeleton
import proofs.«110760_j64003602645285_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at every point, fetched there or not: where the pipeline
    does not fetch, the block index has not moved since the last fetch. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole buffers as rectangles: every load of an input and the one store of the output go through them. -/
abbrev wholeQ : Rect S1x256x1024 := Rect.unit (s := S1x256x1024) ![0, 0, 0] S1x256x1024.size inb_S1x256x1024_S1x256x1024_0_0_0
abbrev wholeKV : Rect S1x2048x1024 := Rect.unit (s := S1x2048x1024) ![0, 0, 0] S1x2048x1024.size inb_S1x2048x1024_S1x2048x1024_0_0_0
abbrev wholeW1 : Rect S1024x1024 := Rect.unit (s := S1024x1024) ![0, 0] S1024x1024.size inb_S1024x1024_S1024x1024_0_0
abbrev wholeB1 : Rect S1x1024 := Rect.unit (s := S1x1024) ![0, 0] S1x1024.size inb_S1x1024_S1x1024_0_0
abbrev wholeS1 : Rect S256x1024 := Rect.unit (s := S256x1024) ![0, 0] S256x1024.size inb_S256x1024_S256x1024_0_0

/-- The sixteen stores into the scratch, last first: head h into columns [64 h, 64 h + 64), as functions of the
    three loaded blocks. -/
def scratchStores (y0 : Vec F S1x256x1024 .bf16) (y1 y2 : Vec F S1x2048x1024 .bf16) : List (View.Piece (Elt F) S256x1024 .f32) :=
  [ ⟨Rect.unit (s := S256x1024) ![0, 960] S256x64.size inb_S256x1024_S256x64_0_960, k1_pay37 (k1_pay2 y0) (k1_pay3 y1) (k1_pay4 y2)⟩,
    ⟨Rect.unit (s := S256x1024) ![0, 896] S256x64.size inb_S256x1024_S256x64_0_896, k1_pay36 (k1_pay35 (k1_pay2 y0) (k1_pay3 y1) (k1_pay4 y2))⟩,
    ⟨Rect.unit (s := S256x1024) ![0, 832] S256x64.size inb_S256x1024_S256x64_0_832, k1_pay34 (k1_pay2 y0) (k1_pay3 y1) (k1_pay4 y2)⟩,
    ⟨Rect.unit (s := S256x1024) ![0, 768] S256x64.size inb_S256x1024_S256x64_0_768, k1_pay33 (k1_pay2 y0) (k1_pay3 y1) (k1_pay4 y2)⟩,
    ⟨Rect.unit (s := S256x1024) ![0, 704] S256x64.size inb_S256x1024_S256x64_0_704, k1_pay32 (k1_pay4 y2) (k1_pay30 (k1_pay2 y0)) (k1_pay31 (k1_pay3 y1))⟩,
    ⟨Rect.unit (s := S256x1024) ![0, 640] S256x64.size inb_S256x1024_S256x64_0_640, k1_pay29 (k1_pay2 y0) (k1_pay3 y1) (k1_pay4 y2)⟩,
    ⟨Rect.unit (s := S256x1024) ![0, 576] S256x64.size inb_S256x1024_S256x64_0_576, k1_pay28 (k1_pay25 (k1_pay2 y0)) (k1_pay26 (k1_pay3 y1)) (k1_pay27 (k1_pay4 y2)) (constant S256x2048 .f32 0x00000000#32)⟩,
    ⟨Rect.unit (s := S256x1024) ![0, 512] S256x64.size inb_S256x1024_S256x64_0_512, k1_pay24 (k1_pay2 y0) (k1_pay3 y1) (k1_pay4 y2)⟩,
    ⟨Rect.unit (s := S256x1024) ![0, 448] S256x64.size inb_S256x1024_S256x64_0_448, k1_pay23 (k1_pay21 (k1_pay4 y2)) (k1_pay22 (k1_pay2 y0) (k1_pay3 y1)) (Scalar.ofBits .f32 0x3E000000#32)⟩,
    ⟨Rect.unit (s := S256x1024) ![0, 384] S256x64.size inb_S256x1024_S256x64_0_384, k1_pay20 (k1_pay2 y0) (k1_pay3 y1) (k1_pay4 y2)⟩,
    ⟨Rect.unit (s := S256x1024) ![0, 320] S256x64.size inb_S256x1024_S256x64_0_320, k1_pay19 (k1_pay17 (k1_pay4 y2)) (k1_pay18 (k1_pay2 y0) (k1_pay3 y1))⟩,
    ⟨Rect.unit (s := S256x1024) ![0, 256] S256x64.size inb_S256x1024_S256x64_0_256, k1_pay16 (k1_pay2 y0) (k1_pay3 y1) (k1_pay4 y2)⟩,
    ⟨Rect.unit (s := S256x1024) ![0, 192] S256x64.size inb_S256x1024_S256x64_0_192, k1_pay15 (k1_pay12 (k1_pay4 y2)) (k1_pay13 (k1_pay2 y0) (k1_pay3 y1)) (k1_pay14 (k1_pay2 y0) (k1_pay3 y1))⟩,
    ⟨Rect.unit (s := S256x1024) ![0, 128] S256x64.size inb_S256x1024_S256x64_0_128, k1_pay11 (k1_pay2 y0) (k1_pay3 y1) (k1_pay4 y2)⟩,
    ⟨Rect.unit (s := S256x1024) ![0, 64] S256x64.size inb_S256x1024_S256x64_0_64, k1_pay10 (k1_pay6 y2) (k1_pay7 y0 y1) (k1_pay8 y0 y1) (k1_pay9 (F := F))⟩,
    ⟨Rect.unit (s := S256x1024) ![0, 0] S256x64.size inb_S256x1024_S256x64_0_0, k1_pay5 y0 y1 y2⟩ ]

/-- The scratch read back whole after the sixteen stores. -/
def scratchRead (y0 : Vec F S1x256x1024 .bf16) (y1 y2 : Vec F S1x2048x1024 .bf16) : Vec F S256x1024 .f32 :=
  fun j => View.canon (scratchStores y0 y1 y2) (wholeS1.toLoadRect.idx j)

/-- What the body leaves in the output buffer: its one store, of the projected scratch plus the bias. -/
def tile1 (x0 : Vec F S1x256x1024 .bf16) (x1 x2 : Vec F S1x2048x1024 .bf16) (x3 : Vec F S1024x1024 .bf16) (x4 : Vec F S1x1024 .f32) :
    Vec F S1x256x1024 .f32 :=
  View.canon [⟨wholeQ, k1_pay1 (k1_pay38 (scratchRead (View.ld x0 wholeQ) (View.ld x1 wholeKV) (View.ld x2 wholeKV)) (View.ld x3 wholeW1) (View.ld x4 wholeB1))⟩]

/-- The store covers the buffer. -/
theorem tile1_cover (p0 : Vec F S1x256x1024 .f32) (y : S1x256x1024.Idx) :
    ∃ pc ∈ ([⟨wholeQ, p0⟩] : List (View.Piece (Elt F) S1x256x1024 .f32)), y ∈ pc.1.set :=
  View.cover_of_tiled [⟨wholeQ, p0⟩] S1x256x1024.size (by rfl) y

set_option maxHeartbeats 4000000 in
/-- The body on whole buffers: the five inputs' at read contents x0 … x4, the output's and the scratch's at
    anything; it ends with the inputs as they were, the output at `tile1 x0 … x4`, the scratch at something. -/
theorem body1_triple (c : Dev nD) (E : Set ℕ) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x1024 .f32) (harg8 : arg8.IsWhole)
    (x0 : Vec F S1x256x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tile1 x0 x1 x2 x3 x4) ∗ (∃ d, owns (c : Thread nD τ) arg8 fullShare d)) -∗ K ⟨⟩))
      ⊢ wp frame (wpE (defs₀ (F := F)) Variants.none c none) E (cc1__attn_out_kernel i arg2 harg2 arg3 harg3 arg4 harg4 arg5 harg5 arg6 harg6 arg7 harg7 arg8 harg8) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (tile1_cover _)]
    sl_unfold_run_names
    simp only [View.readCov_eq_canon']
    rfl
  iexists _; iexists _; isplitr
  swap; · iexact H8
  ipureintro; rfl

/-- The attention pipeline's data on core c: arrays as found; after the body each input buffer at its block and
    the output buffer at `tile1` of the five blocks; the invariant is the scoped rest (the scratch among it) and
    the generator register; nothing owed; the three windows on the projected array hold it at a half and two
    quarters of the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => tile1 (blk1 V c 0 t) (blk1 V c 1 t) (blk1 V c 2 t) (blk1 V c 3 t) (blk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) :
    (dat1 V c).after 5 t = tile1 (blk1 V c 0 t) (blk1 V c 1 t) (blk1 V c 2 t) (blk1 V c 3 t) (blk1 V c 4 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d

/-- The scratch buffer whole at some contents, as the invariant holds it and as the body takes it. -/
theorem scratch_owns (c : Dev nD) :
    (iprop(∃ f : Buf (Elt F) ((c : Thread nD τ).loc cc1_scratch0), ((c : Thread nD τ).loc cc1_scratch0) ↦{fullShare} f) : sProp 𝕄)
      ⊣⊢ iprop(∃ d, owns (c : Thread nD τ) (Memref.whole cc1_scratch0) fullShare d) := by
  unfold owns
  rw [(Memref.isWhole_whole cc1_scratch0).set_eq_univ]
  constructor
  · iintro ⟨%f, H⟩
    iexists _; iexists f; isplitr; · ipureintro; rfl
    iexact H
  · iintro ⟨%d, %f, -, H⟩
    iexists f; iexact H

/-- What the body is called with at point t, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    dat1_after0, dat1_after1, dat1_after2, dat1_after3, dat1_after4, dat1_after5]
  unfold Pipeline.ΦA
  rw [scopedRest1_eq]
  iintro ⟨⟨⟨Hs0, Hs1, Hs2, Hs3, Hs4, Hs5⟩, Hp⟩, Ho, ⟨%d0, H0⟩, ⟨%d1, H1⟩, ⟨%d2, H2⟩, ⟨%d3, H3⟩, ⟨%d4, H4⟩, ⟨%d5, H5⟩⟩
  ihave Hs := (scratch_owns (F := F) c).1 $$ Hs5
  iapply (body1_triple c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexact Hs
  iintro ⟨H0, H1, H2, H3, H4, H5, Hs⟩
  ihave Hs5 := (scratch_owns (F := F) c).2 $$ Hs
  isplitl [Hs0 Hs1 Hs2 Hs3 Hs4 Hs5 Hp]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body obligation of the attention pipeline, at every point. -/
theorem body1_obligation (c : Dev nD) : BodyObligation (dat1 (F := F) V c) (defs₀ (F := F)) Variants.none () Set.univ := fun t => by
  rw [bigSep_W1, bigSep_W1]
  exact body1_at V c t

end Cert.Kernel.Hand

end
-- ==== Proof.Bits.Run.lean ====
/-
  The run of the whole program: the reshape of the input, the projection kernel, the reshape of its result with
  the conversion of the output weights and the reshape of the bias, the attention kernel.

  The contents of every buffer that is not private to a kernel are followed through the four stretches: the launch
  memory; after the first reshape; after the projection kernel, whose result array holds what its write-backs
  leave; after the three host operations; after the attention kernel, whose result array holds what its
  write-backs leave. Each kernel is entered from the buffers at the contents before it and left at the contents
  after it. The attention kernel reads the projected array through three windows: at its entry the array's full
  share is split in a half and two quarters, one per window, and at its exit the three parts, which still hold
  the array as it was, are joined again. Every weakly fair execution ends, and at the end every such buffer holds
  the last contents.
-/
import proofs.«110760_j64003602645285_2_alg».proof.Proof.Bits.Body0
import proofs.«110760_j64003602645285_2_alg».proof.Proof.Bits.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshape of the input. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel: its arrays at what the pipeline leaves, the rest as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem W2_arrs (c : Dev nD) (w : Fin cfg0.W) : (dat0 (V1 m) c).arrAt w cfg0.N = V2 m c (Pipeline.arrRef spec0 w) :=
  (W2_arr m c w).symm
theorem W2_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three host operations between the kernels. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention kernel: its result array at what the pipeline leaves, the rest as before. -/
def W4 (c : Dev nD) : Valuation τ sig (Elt F) :=
  Function.update (W3 m c) (Proc.devRef .tc main_v5) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v5) = (dat1 (V3 m) c).arrAt 5 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..

/-! ## The proof data family and the thread state -/

abbrev adm : (p : Fin 2) → (pcfgs (F := F) p).Adm := fun p => (cfgs p).toPCfg_adm
/-- Both pipelines' data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_nofresh : (hostOps0 : List (HloOp τ sig (Elt F))).Forall fun op => op.fresh = ∅ := by
  simp only [List.Forall]; repeat' constructor
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The attention kernel's arrays: one array behind three windows -/

/-- The distinct buffers behind the attention kernel's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v2) ↦{fullShare} Vv main_v2) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_v2, main_v3, main_v4, main_v5] (by decide) (by decide) _

/-- The attention pipeline's arrays at contents G, window by window, each at its share. -/
theorem arrays1_eq (c : Dev nD) (G : (w : Fin cfg1.W) → Buf (Elt F) ((cfg1.win w).arr.view.loc (c : Thread nD τ))) :
    ((dat1 (V3 m) c).arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3) ↦{fullShare} G 3)
          ∗ (((c : Thread nD τ).loc main_v4) ↦{fullShare} G 4) ∗ (((c : Thread nD τ).loc main_v5) ↦{fullShare} G 5)) := by
  unfold Dat.arrays
  rw [bigSep_W1]
  simp only [(Memref.isWhole_whole main_v2).set_eq_univ, (Memref.isWhole_whole main_v3).set_eq_univ,
    (Memref.isWhole_whole main_v4).set_eq_univ, (Memref.isWhole_whole main_v5).set_eq_univ]
  rfl

/-- ENTRY: the four buffers at the full share make the six windows' arrays at their entry contents. -/
theorem arrays1_split (c : Dev nD) :
    (Pipeline.arrBufs (Ix := Unit) (Name := ℕ) (U := UR sig nD τ) (Lvl := ℕ) spec1 c (V3 m c) : sProp 𝕄)
      ⊢ (dat1 (V3 m) c).arrays ((dat1 (V3 m) c).arrAt · 0) := by
  rw [arrBufs1_eq, arrays1_eq]
  iintro ⟨H2, H3, H4, H5⟩
  ihave H2' := (pointsTo_share (PosShare.mem_left_op_right fullShare)).1 $$ H2
  icases H2' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H3]; · iexact H3
  isplitl [H4]; · iexact H4
  iexact H5

/-- EXIT: the six windows' arrays at their final contents make the four buffers at the contents after the kernel:
    an input window's array ends as it was found, so the three parts of the projected array join. -/
theorem arrays1_join (c : Dev nD) :
    ((dat1 (V3 m) c).arrays ((dat1 (V3 m) c).arrAt · cfg1.N) : sProp 𝕄)
      ⊢ Pipeline.arrBufs (Ix := Unit) (Name := ℕ) (U := UR sig nD τ) (Lvl := ℕ) spec1 c (V4 m c) := by
  rw [arrBufs1_eq, arrays1_eq]
  rw [show (dat1 (V3 m) c).arrAt 0 cfg1.N = V3 m c main_v2 from ((dat1 (V3 m) c).arrAt_in 0 rfl _).trans (dat1_A (V3 m) c 0),
    show (dat1 (V3 m) c).arrAt 1 cfg1.N = V3 m c main_v2 from ((dat1 (V3 m) c).arrAt_in 1 rfl _).trans (dat1_A (V3 m) c 1),
    show (dat1 (V3 m) c).arrAt 2 cfg1.N = V3 m c main_v2 from ((dat1 (V3 m) c).arrAt_in 2 rfl _).trans (dat1_A (V3 m) c 2),
    show (dat1 (V3 m) c).arrAt 3 cfg1.N = V3 m c main_v3 from ((dat1 (V3 m) c).arrAt_in 3 rfl _).trans (dat1_A (V3 m) c 3),
    show (dat1 (V3 m) c).arrAt 4 cfg1.N = V3 m c main_v4 from ((dat1 (V3 m) c).arrAt_in 4 rfl _).trans (dat1_A (V3 m) c 4),
    show V4 m c main_v2 = V3 m c main_v2 from W4_of_ne m c main_v2 (by decide),
    show V4 m c main_v3 = V3 m c main_v3 from W4_of_ne m c main_v3 (by decide),
    show V4 m c main_v4 = V3 m c main_v4 from W4_of_ne m c main_v4 (by decide),
    show V4 m c main_v5 = (dat1 (V3 m) c).arrAt 5 cfg1.N from W4_out m c]
  iintro ⟨Ha, Hb1, Hb2, H3, H4, H5⟩
  ihave Hb := (pointsTo_share (PosShare.mem_left_op_right fullShare.right)).2 $$ [Hb1 Hb2]
  · isplitl [Hb1]; · iexact Hb1
    iexact Hb2
  ihave H2 := (pointsTo_share (PosShare.mem_left_op_right fullShare)).2 $$ [Ha Hb]
  · isplitl [Ha]; · iexact Ha
    iexact Hb
  isplitl [H2]; · iexact H2
  isplitl [H3]; · iexact H3
  isplitl [H4]; · iexact H4
  iexact H5

/-- The buffers no window of the attention kernel reaches are the same before and after it. -/
theorem rest1_eq (c : Dev nD) :
    (Pipeline.unscopedRest (Ix := Unit) (Name := ℕ) (U := UR sig nD τ) (Lvl := ℕ) spec1 c (V3 m c) : sProp 𝕄)
      = Pipeline.unscopedRest spec1 c (V4 m c) := by
  unfold Pipeline.unscopedRest
  refine bigSep_congr fun b hb => ?_
  rw [show V4 m c b = V3 m c b from W4_of_ne m c b fun e => (Finset.mem_sdiff.mp hb).2 (Finset.mem_image.mpr ⟨5, Finset.mem_univ _, e ▸ rfl⟩)]

/-- Every buffer that is not private to a kernel, at contents W: the four behind the attention kernel's windows
    and the rest. -/
theorem held1_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

/-! ## The kernels as segments -/

set_option backward.isDefEq.respectTransparency.types false in
/-- The projection kernel: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (W2_arrs m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body1_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hs := Entails.of_eq (held1_split (F := F) c (W3 m c))
    have ha := arrays1_split m c
    iintro ⟨⟨Hub, Hp, HO⟩, -, -⟩
    ihave Hub' := hs $$ Hub
    icases Hub' with ⟨Ha, Hrest⟩
    ihave Ha' := ha $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Entails.of_eq (held1_split (F := F) c (W4 m c)).symm
    have ha := arrays1_join m c
    have hr := Entails.of_eq (rest1_eq m c)
    iintro ⟨Ha, HO, HY, Hrest⟩
    imodintro
    isplitl [Ha Hrest HY]
    · isplitl [Ha Hrest]
      · iapply hs
        isplitl [Ha]
        · iapply ha; iexact Ha
        iapply hr; iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_nofresh (W0 m)),
    .region (reg0 m),
    .host (hseg hostOps1 hostOps1_sub hostOps1_nofresh (W2 m)),
    .region (reg1 m) ]
theorem main_is_segs (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each buffer that is not private to a kernel holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Bits.Args.lean ====
/-
  The argument arrays at the end of the run: no host operation writes one, the projection kernel only reads the
  weights it is handed, and the attention kernel reads none of them directly, so the last contents at an argument
  are the launch contents.
-/
import proofs.«110760_j64003602645285_2_alg».proof.Proof.Bits.Run
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W3_of_host (c : Dev nD) (b : Ref sig .tc) (hb : b ∉ ([main_v2, main_v3, main_v4] : List (Ref sig .tc))) :
    W3 m c (Proc.devRef .tc b) = W2 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    refine ⟨?_, ?_, ?_⟩
    · exact StableHlo.devRef_ne_of_ne fun e => hb (e ▸ by simp)
    · exact StableHlo.devRef_ne_of_ne fun e => hb (e ▸ by simp)
    · exact StableHlo.devRef_ne_of_ne fun e => hb (e ▸ by simp)))

theorem W1_of_host (c : Dev nD) (b : Ref sig .tc) (hb : b ≠ main_v0) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W4_arg0 (c : Dev nD) : W4 m c (Proc.devRef .tc main_arg0) = m ((c : Thread nD τ).loc main_arg0) :=
  (W4_of_ne m c main_arg0 (by decide)).trans <| (W3_of_host m c main_arg0 (by decide)).trans <|
    (W2_of_ne m c main_arg0 (by decide)).trans (W1_of_host m c main_arg0 (by decide))
theorem W4_arg1 (c : Dev nD) : W4 m c (Proc.devRef .tc main_arg1) = m ((c : Thread nD τ).loc main_arg1) :=
  (W4_of_ne m c main_arg1 (by decide)).trans <| (W3_of_host m c main_arg1 (by decide)).trans <|
    (W2_arr m c 1).trans <| ((dat0 (V1 m) c).arrAt_in 1 rfl _).trans <| (dat0_A (V1 m) c 1).trans (W1_of_host m c main_arg1 (by decide))
theorem W4_arg2 (c : Dev nD) : W4 m c (Proc.devRef .tc main_arg2) = m ((c : Thread nD τ).loc main_arg2) :=
  (W4_of_ne m c main_arg2 (by decide)).trans <| (W3_of_host m c main_arg2 (by decide)).trans <|
    (W2_of_ne m c main_arg2 (by decide)).trans (W1_of_host m c main_arg2 (by decide))
theorem W4_arg3 (c : Dev nD) : W4 m c (Proc.devRef .tc main_arg3) = m ((c : Thread nD τ).loc main_arg3) :=
  (W4_of_ne m c main_arg3 (by decide)).trans <| (W3_of_host m c main_arg3 (by decide)).trans <|
    (W2_of_ne m c main_arg3 (by decide)).trans (W1_of_host m c main_arg3 (by decide))

end Cert.Kernel.Hand

end
-- ==== Proof.Body0.lean ====
/-
  The projection kernel's body, for the separation-logic run of the program.

  At a grid point the body is handed a [512, 1024] block of the flattened input and a [1024, 1024] block of the
  projection weights, multiplies them, and stores the [512, 1024] product into the output block. What it leaves
  in the output buffer is therefore one store over the whole buffer, whose value is a function of the two input
  blocks. The pipeline data say: the arrays are as the region finds them, each input buffer holds its block at
  every point, and the output buffer holds that function of them; the body's triple is by symbolic execution.
-/
import proofs.«110760_j64003602645285_2_alg».proof.Proof.Gen.KernelIdeal.Launch
import proofs.«110760_j64003602645285_2_alg».proof.Proof.Gen.KernelIdeal.Skeleton
import proofs.«110760_j64003602645285_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, fetched there or not: where the pipeline
    does not fetch, the block index has not moved since the last fetch. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole [512, 1024] buffer as a rectangle: the body's loads and its one store go through it. -/
abbrev whole0 : Rect S512x1024 := Rect.unit (s := S512x1024) ![0, 0] S512x1024.size inb_S512x1024_S512x1024_0_0
/-- The whole weights buffer. -/
abbrev wholeW0 : Rect S1024x1024 := Rect.unit (s := S1024x1024) ![0, 0] S1024x1024.size inb_S1024x1024_S1024x1024_0_0

/-- What the body leaves in the output buffer: its one store, of the product of the two blocks. -/
def tile0 (x0 : Vec F S512x1024 .f32) (x1 : Vec F S1024x1024 .f32) : Vec F S512x1024 .bf16 :=
  View.canon [⟨whole0, k0_pay1 (View.ld x0 whole0) (View.ld x1 wholeW0)⟩]

/-- The store covers the buffer. -/
theorem tile0_cover (p0 : Vec F S512x1024 .bf16) (y : S512x1024.Idx) :
    ∃ pc ∈ ([⟨whole0, p0⟩] : List (View.Piece (Elt F) S512x1024 .bf16)), y ∈ pc.1.set :=
  View.cover_of_tiled [⟨whole0, p0⟩] S512x1024.size (by rfl) y

set_option maxHeartbeats 1000000 in
/-- The body on whole buffers: the inputs' at read contents x0, x1 and the output's at anything; it ends with the
    inputs as they were and the output at `tile0 x0 x1`. -/
theorem body0_triple (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (tile0 x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile0_cover _)

/-- The projection pipeline's data on core c: arrays as found; after the body each input buffer at its block
    and the output buffer at the product tile; the invariant is the scoped rest and the generator register,
    untouched; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => tile0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = tile0 (blk0 V c 0 t) (blk0 V c 1 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d

/-- What the body is called with at point t, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem body0_obligation (c : Dev nD) : BodyObligation (dat0 (F := F) V c) (defs₀ (F := F)) Variants.none () Set.univ := fun t => by
  rw [bigSep_W0, bigSep_W0]
  exact body0_at V c t

end Cert.KernelIdeal.Hand

end
-- ==== Proof.Body1.lean ====
/-
  The attention kernel's body, for the separation-logic run of the program.

  At a grid point the body is handed a [1, 256, 1024] block of queries, the [1, 2048, 1024] blocks of keys and of
  values of the same batch entry, the output weights [1024, 1024] and the bias [1, 1024]. Head by head it stores
  a [256, 64] result into columns [64 h, 64 h + 64) of a scratch buffer [256, 1024]; the sixteen stores tile the
  scratch, so the scratch read back whole is a function of the three blocks alone, whatever it held before. That
  matrix times the weights plus the bias is stored over the whole output buffer. The pipeline data say: arrays as
  found, every input buffer at its block at every point, the output buffer at that function of the five blocks;
  the scratch lives in the invariant, at contents nobody names. Queries, keys and values are three windows on ONE
  array, so the three hold it at three disjoint shares that compose to the full one.
-/
import proofs.«110760_j64003602645285_2_alg».proof.Proof.Gen.KernelIdeal.Launch
import proofs.«110760_j64003602645285_2_alg».proof.Proof.Gen.KernelIdeal.Skeleton
import proofs.«110760_j64003602645285_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's buffer holds the window's block at every point, fetched there or not: where the pipeline
    does not fetch, the block index has not moved since the last fetch. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The whole buffers as rectangles: every load of an input and the one store of the output go through them. -/
abbrev wholeQ : Rect S1x256x1024 := Rect.unit (s := S1x256x1024) ![0, 0, 0] S1x256x1024.size inb_S1x256x1024_S1x256x1024_0_0_0
abbrev wholeKV : Rect S1x2048x1024 := Rect.unit (s := S1x2048x1024) ![0, 0, 0] S1x2048x1024.size inb_S1x2048x1024_S1x2048x1024_0_0_0
abbrev wholeW1 : Rect S1024x1024 := Rect.unit (s := S1024x1024) ![0, 0] S1024x1024.size inb_S1024x1024_S1024x1024_0_0
abbrev wholeB1 : Rect S1x1024 := Rect.unit (s := S1x1024) ![0, 0] S1x1024.size inb_S1x1024_S1x1024_0_0
abbrev wholeS1 : Rect S256x1024 := Rect.unit (s := S256x1024) ![0, 0] S256x1024.size inb_S256x1024_S256x1024_0_0

/-- The sixteen stores into the scratch, last first: head h into columns [64 h, 64 h + 64), as functions of the
    three loaded blocks. -/
def scratchStores (y0 : Vec F S1x256x1024 .bf16) (y1 y2 : Vec F S1x2048x1024 .bf16) : List (View.Piece (Elt F) S256x1024 .f32) :=
  [ ⟨Rect.unit (s := S256x1024) ![0, 960] S256x64.size inb_S256x1024_S256x64_0_960, k1_pay37 (k1_pay2 y0) (k1_pay3 y1) (k1_pay4 y2)⟩,
    ⟨Rect.unit (s := S256x1024) ![0, 896] S256x64.size inb_S256x1024_S256x64_0_896, k1_pay36 (k1_pay35 (k1_pay2 y0) (k1_pay3 y1) (k1_pay4 y2))⟩,
    ⟨Rect.unit (s := S256x1024) ![0, 832] S256x64.size inb_S256x1024_S256x64_0_832, k1_pay34 (k1_pay2 y0) (k1_pay3 y1) (k1_pay4 y2)⟩,
    ⟨Rect.unit (s := S256x1024) ![0, 768] S256x64.size inb_S256x1024_S256x64_0_768, k1_pay33 (k1_pay2 y0) (k1_pay3 y1) (k1_pay4 y2)⟩,
    ⟨Rect.unit (s := S256x1024) ![0, 704] S256x64.size inb_S256x1024_S256x64_0_704, k1_pay32 (k1_pay4 y2) (k1_pay30 (k1_pay2 y0)) (k1_pay31 (k1_pay3 y1))⟩,
    ⟨Rect.unit (s := S256x1024) ![0, 640] S256x64.size inb_S256x1024_S256x64_0_640, k1_pay29 (k1_pay2 y0) (k1_pay3 y1) (k1_pay4 y2)⟩,
    ⟨Rect.unit (s := S256x1024) ![0, 576] S256x64.size inb_S256x1024_S256x64_0_576, k1_pay28 (k1_pay25 (k1_pay2 y0)) (k1_pay26 (k1_pay3 y1)) (k1_pay27 (k1_pay4 y2)) (constant S256x2048 .f32 0x00000000#32)⟩,
    ⟨Rect.unit (s := S256x1024) ![0, 512] S256x64.size inb_S256x1024_S256x64_0_512, k1_pay24 (k1_pay2 y0) (k1_pay3 y1) (k1_pay4 y2)⟩,
    ⟨Rect.unit (s := S256x1024) ![0, 448] S256x64.size inb_S256x1024_S256x64_0_448, k1_pay23 (k1_pay21 (k1_pay4 y2)) (k1_pay22 (k1_pay2 y0) (k1_pay3 y1)) (Scalar.ofBits .f32 0x3E000000#32)⟩,
    ⟨Rect.unit (s := S256x1024) ![0, 384] S256x64.size inb_S256x1024_S256x64_0_384, k1_pay20 (k1_pay2 y0) (k1_pay3 y1) (k1_pay4 y2)⟩,
    ⟨Rect.unit (s := S256x1024) ![0, 320] S256x64.size inb_S256x1024_S256x64_0_320, k1_pay19 (k1_pay17 (k1_pay4 y2)) (k1_pay18 (k1_pay2 y0) (k1_pay3 y1))⟩,
    ⟨Rect.unit (s := S256x1024) ![0, 256] S256x64.size inb_S256x1024_S256x64_0_256, k1_pay16 (k1_pay2 y0) (k1_pay3 y1) (k1_pay4 y2)⟩,
    ⟨Rect.unit (s := S256x1024) ![0, 192] S256x64.size inb_S256x1024_S256x64_0_192, k1_pay15 (k1_pay12 (k1_pay4 y2)) (k1_pay13 (k1_pay2 y0) (k1_pay3 y1)) (k1_pay14 (k1_pay2 y0) (k1_pay3 y1))⟩,
    ⟨Rect.unit (s := S256x1024) ![0, 128] S256x64.size inb_S256x1024_S256x64_0_128, k1_pay11 (k1_pay2 y0) (k1_pay3 y1) (k1_pay4 y2)⟩,
    ⟨Rect.unit (s := S256x1024) ![0, 64] S256x64.size inb_S256x1024_S256x64_0_64, k1_pay10 (k1_pay6 y2) (k1_pay7 y0 y1) (k1_pay8 y0 y1) (k1_pay9 (F := F))⟩,
    ⟨Rect.unit (s := S256x1024) ![0, 0] S256x64.size inb_S256x1024_S256x64_0_0, k1_pay5 y0 y1 y2⟩ ]

/-- The scratch read back whole after the sixteen stores. -/
def scratchRead (y0 : Vec F S1x256x1024 .bf16) (y1 y2 : Vec F S1x2048x1024 .bf16) : Vec F S256x1024 .f32 :=
  fun j => View.canon (scratchStores y0 y1 y2) (wholeS1.toLoadRect.idx j)

/-- What the body leaves in the output buffer: its one store, of the projected scratch plus the bias. -/
def tile1 (x0 : Vec F S1x256x1024 .bf16) (x1 x2 : Vec F S1x2048x1024 .bf16) (x3 : Vec F S1024x1024 .bf16) (x4 : Vec F S1x1024 .f32) :
    Vec F S1x256x1024 .f32 :=
  View.canon [⟨wholeQ, k1_pay1 (k1_pay38 (scratchRead (View.ld x0 wholeQ) (View.ld x1 wholeKV) (View.ld x2 wholeKV)) (View.ld x3 wholeW1) (View.ld x4 wholeB1))⟩]

/-- The store covers the buffer. -/
theorem tile1_cover (p0 : Vec F S1x256x1024 .f32) (y : S1x256x1024.Idx) :
    ∃ pc ∈ ([⟨wholeQ, p0⟩] : List (View.Piece (Elt F) S1x256x1024 .f32)), y ∈ pc.1.set :=
  View.cover_of_tiled [⟨wholeQ, p0⟩] S1x256x1024.size (by rfl) y

set_option maxHeartbeats 4000000 in
/-- The body on whole buffers: the five inputs' at read contents x0 … x4, the output's and the scratch's at
    anything; it ends with the inputs as they were, the output at `tile1 x0 … x4`, the scratch at something. -/
theorem body1_triple (c : Dev nD) (E : Set ℕ) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x256x1024 .f32) (harg7 : arg7.IsWhole) (arg8 : Memref sig .tc .vmem S256x1024 .f32) (harg8 : arg8.IsWhole)
    (x0 : Vec F S1x256x1024 .bf16) (x1 x2 : Vec F S1x2048x1024 .bf16) (x3 : Vec F S1024x1024 .bf16) (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tile1 x0 x1 x2 x3 x4) ∗ (∃ d, owns (c : Thread nD τ) arg8 fullShare d)) -∗ K ⟨⟩))
      ⊢ wp frame (wpE (defs₀ (F := F)) Variants.none c none) E (cc1__attn_out_kernel i arg2 harg2 arg3 harg3 arg4 harg4 arg5 harg5 arg6 harg6 arg7 harg7 arg8 harg8) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (tile1_cover _)]
    sl_unfold_run_names
    simp only [View.readCov_eq_canon']
    rfl
  iexists _; iexists _; isplitr
  swap; · iexact H8
  ipureintro; rfl

/-- The attention pipeline's data on core c: arrays as found; after the body each input buffer at its block and
    the output buffer at `tile1` of the five blocks; the invariant is the scoped rest (the scratch among it) and
    the generator register; nothing owed; the three windows on the projected array hold it at a half and two
    quarters of the full share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => tile1 (blk1 V c 0 t) (blk1 V c 1 t) (blk1 V c 2 t) (blk1 V c 3 t) (blk1 V c 4 t)
  Φ _ := Pipeline.ΦA spec1 c
  q w := match w with
    | ⟨0, _⟩ => fullShare.left
    | ⟨1, _⟩ => fullShare.right.left
    | ⟨2, _⟩ => fullShare.right.right
    | _ => fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) :
    (dat1 V c).after 5 t = tile1 (blk1 V c 0 t) (blk1 V c 1 t) (blk1 V c 2 t) (blk1 V c 3 t) (blk1 V c 4 t) := by dsimp only [dat1]
theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d
theorem dat1_before4 (c : Dev nD) (t : Fin cfg1.N) (d) : (dat1 V c).before 4 t d = blk1 V c 4 t :=
  found1_4 V (dat1 V c) (dat1_A V c 4) (dat1_after4 V c) t d

/-- The scratch buffer whole at some contents, as the invariant holds it and as the body takes it. -/
theorem scratch_owns (c : Dev nD) :
    (iprop(∃ f : Buf (Elt F) ((c : Thread nD τ).loc cc1_scratch0), ((c : Thread nD τ).loc cc1_scratch0) ↦{fullShare} f) : sProp 𝕄)
      ⊣⊢ iprop(∃ d, owns (c : Thread nD τ) (Memref.whole cc1_scratch0) fullShare d) := by
  unfold owns
  rw [(Memref.isWhole_whole cc1_scratch0).set_eq_univ]
  constructor
  · iintro ⟨%f, H⟩
    iexists _; iexists f; isplitr; · ipureintro; rfl
    iexact H
  · iintro ⟨%d, %f, -, H⟩
    iexists f; iexact H

/-- What the body is called with at point t, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    dat1_after0, dat1_after1, dat1_after2, dat1_after3, dat1_after4, dat1_after5]
  unfold Pipeline.ΦA
  rw [scopedRest1_eq]
  iintro ⟨⟨⟨Hs0, Hs1, Hs2, Hs3, Hs4, Hs5⟩, Hp⟩, Ho, ⟨%d0, H0⟩, ⟨%d1, H1⟩, ⟨%d2, H2⟩, ⟨%d3, H3⟩, ⟨%d4, H4⟩, ⟨%d5, H5⟩⟩
  ihave Hs := (scratch_owns (F := F) c).1 $$ Hs5
  iapply (body1_triple c Set.univ _ _ _ _ _ _ _ _ _ _ _ _ _ _ _ (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexact Hs
  iintro ⟨H0, H1, H2, H3, H4, H5, Hs⟩
  ihave Hs5 := (scratch_owns (F := F) c).2 $$ Hs
  isplitl [Hs0 Hs1 Hs2 Hs3 Hs4 Hs5 Hp]
  · isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4]; · iexact Hs4
      iexact Hs5
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body obligation of the attention pipeline, at every point. -/
theorem body1_obligation (c : Dev nD) : BodyObligation (dat1 (F := F) V c) (defs₀ (F := F)) Variants.none () Set.univ := fun t => by
  rw [bigSep_W1, bigSep_W1]
  exact body1_at V c t

end Cert.KernelIdeal.Hand

end
-- ==== Proof.Run.lean ====
/-
  The run of the whole program: the reshape of the input, the projection kernel, the reshape of its result with
  the conversion of the output weights and the reshape of the bias, the attention kernel.

  The contents of every buffer that is not private to a kernel are followed through the four stretches: the launch
  memory; after the first reshape; after the projection kernel, whose result array holds what its write-backs
  leave; after the three host operations; after the attention kernel, whose result array holds what its
  write-backs leave. Each kernel is entered from the buffers at the contents before it and left at the contents
  after it. The attention kernel reads the projected array through three windows: at its entry the array's full
  share is split in a half and two quarters, one per window, and at its exit the three parts, which still hold
  the array as it was, are joined again. Every weakly fair execution ends, and at the end every such buffer holds
  the last contents.
-/
import proofs.«110760_j64003602645285_2_alg».proof.Proof.Body0
import proofs.«110760_j64003602645285_2_alg».proof.Proof.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the reshape of the input. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection kernel: its arrays at what the pipeline leaves, the rest as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem W2_arrs (c : Dev nD) (w : Fin cfg0.W) : (dat0 (V1 m) c).arrAt w cfg0.N = V2 m c (Pipeline.arrRef spec0 w) :=
  (W2_arr m c w).symm
theorem W2_rest (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the three host operations between the kernels. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention kernel: its result array at what the pipeline leaves, the rest as before. -/
def W4 (c : Dev nD) : Valuation τ sig (Elt F) :=
  Function.update (W3 m c) (Proc.devRef .tc main_v5) ((dat1 (V3 m) c).arrAt 5 cfg1.N)
abbrev V4 : (c : Dev nD) → (b : Ref sig .tc) → Buf (Elt F) ((c : Thread nD τ).loc b) := fun c b => W4 m c b
theorem W4_out (c : Dev nD) : W4 m c (Proc.devRef .tc main_v5) = (dat1 (V3 m) c).arrAt 5 cfg1.N := by
  unfold W4; exact Function.update_self ..
theorem W4_of_ne (c : Dev nD) (b : Ref sig .tc) (hb : b ≠ main_v5) :
    W4 m c (Proc.devRef .tc b) = W3 m c (Proc.devRef .tc b) := by
  unfold W4; exact Function.update_of_ne (StableHlo.devRef_ne_of_ne hb) ..

/-! ## The proof data family and the thread state -/

abbrev adm : (p : Fin 2) → (pcfgs (F := F) p).Adm := fun p => (cfgs p).toPCfg_adm
/-- Both pipelines' data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_nofresh : (hostOps0 : List (HloOp τ sig (Elt F))).Forall fun op => op.fresh = ∅ := by
  simp only [List.Forall]; repeat' constructor
theorem hostOps1_nofresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The attention kernel's arrays: one array behind three windows -/

/-- The distinct buffers behind the attention kernel's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v2) ↦{fullShare} Vv main_v2) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_v2, main_v3, main_v4, main_v5] (by decide) (by decide) _

/-- The attention pipeline's arrays at contents G, window by window, each at its share. -/
theorem arrays1_eq (c : Dev nD) (G : (w : Fin cfg1.W) → Buf (Elt F) ((cfg1.win w).arr.view.loc (c : Thread nD τ))) :
    ((dat1 (V3 m) c).arrays G : sProp 𝕄)
      = iprop((((c : Thread nD τ).loc main_v2) ↦{fullShare.left} G 0) ∗ (((c : Thread nD τ).loc main_v2) ↦{fullShare.right.left} G 1)
          ∗ (((c : Thread nD τ).loc main_v2) ↦{fullShare.right.right} G 2) ∗ (((c : Thread nD τ).loc main_v3) ↦{fullShare} G 3)
          ∗ (((c : Thread nD τ).loc main_v4) ↦{fullShare} G 4) ∗ (((c : Thread nD τ).loc main_v5) ↦{fullShare} G 5)) := by
  unfold Dat.arrays
  rw [bigSep_W1]
  simp only [(Memref.isWhole_whole main_v2).set_eq_univ, (Memref.isWhole_whole main_v3).set_eq_univ,
    (Memref.isWhole_whole main_v4).set_eq_univ, (Memref.isWhole_whole main_v5).set_eq_univ]
  rfl

/-- ENTRY: the four buffers at the full share make the six windows' arrays at their entry contents. -/
theorem arrays1_split (c : Dev nD) :
    (Pipeline.arrBufs (Ix := Unit) (Name := ℕ) (U := UR sig nD τ) (Lvl := ℕ) spec1 c (V3 m c) : sProp 𝕄)
      ⊢ (dat1 (V3 m) c).arrays ((dat1 (V3 m) c).arrAt · 0) := by
  rw [arrBufs1_eq, arrays1_eq]
  iintro ⟨H2, H3, H4, H5⟩
  ihave H2' := (pointsTo_share (PosShare.mem_left_op_right fullShare)).1 $$ H2
  icases H2' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  isplitl [H3]; · iexact H3
  isplitl [H4]; · iexact H4
  iexact H5

/-- EXIT: the six windows' arrays at their final contents make the four buffers at the contents after the kernel:
    an input window's array ends as it was found, so the three parts of the projected array join. -/
theorem arrays1_join (c : Dev nD) :
    ((dat1 (V3 m) c).arrays ((dat1 (V3 m) c).arrAt · cfg1.N) : sProp 𝕄)
      ⊢ Pipeline.arrBufs (Ix := Unit) (Name := ℕ) (U := UR sig nD τ) (Lvl := ℕ) spec1 c (V4 m c) := by
  rw [arrBufs1_eq, arrays1_eq]
  rw [show (dat1 (V3 m) c).arrAt 0 cfg1.N = V3 m c main_v2 from ((dat1 (V3 m) c).arrAt_in 0 rfl _).trans (dat1_A (V3 m) c 0),
    show (dat1 (V3 m) c).arrAt 1 cfg1.N = V3 m c main_v2 from ((dat1 (V3 m) c).arrAt_in 1 rfl _).trans (dat1_A (V3 m) c 1),
    show (dat1 (V3 m) c).arrAt 2 cfg1.N = V3 m c main_v2 from ((dat1 (V3 m) c).arrAt_in 2 rfl _).trans (dat1_A (V3 m) c 2),
    show (dat1 (V3 m) c).arrAt 3 cfg1.N = V3 m c main_v3 from ((dat1 (V3 m) c).arrAt_in 3 rfl _).trans (dat1_A (V3 m) c 3),
    show (dat1 (V3 m) c).arrAt 4 cfg1.N = V3 m c main_v4 from ((dat1 (V3 m) c).arrAt_in 4 rfl _).trans (dat1_A (V3 m) c 4),
    show V4 m c main_v2 = V3 m c main_v2 from W4_of_ne m c main_v2 (by decide),
    show V4 m c main_v3 = V3 m c main_v3 from W4_of_ne m c main_v3 (by decide),
    show V4 m c main_v4 = V3 m c main_v4 from W4_of_ne m c main_v4 (by decide),
    show V4 m c main_v5 = (dat1 (V3 m) c).arrAt 5 cfg1.N from W4_out m c]
  iintro ⟨Ha, Hb1, Hb2, H3, H4, H5⟩
  ihave Hb := (pointsTo_share (PosShare.mem_left_op_right fullShare.right)).2 $$ [Hb1 Hb2]
  · isplitl [Hb1]; · iexact Hb1
    iexact Hb2
  ihave H2 := (pointsTo_share (PosShare.mem_left_op_right fullShare)).2 $$ [Ha Hb]
  · isplitl [Ha]; · iexact Ha
    iexact Hb
  isplitl [H2]; · iexact H2
  isplitl [H3]; · iexact H3
  isplitl [H4]; · iexact H4
  iexact H5

/-- The buffers no window of the attention kernel reaches are the same before and after it. -/
theorem rest1_eq (c : Dev nD) :
    (Pipeline.unscopedRest (Ix := Unit) (Name := ℕ) (U := UR sig nD τ) (Lvl := ℕ) spec1 c (V3 m c) : sProp 𝕄)
      = Pipeline.unscopedRest spec1 c (V4 m c) := by
  unfold Pipeline.unscopedRest
  refine bigSep_congr fun b hb => ?_
  rw [show V4 m c b = V3 m c b from W4_of_ne m c b fun e => (Finset.mem_sdiff.mp hb).2 (Finset.mem_image.mpr ⟨5, Finset.mem_univ _, e ▸ rfl⟩)]

/-- Every buffer that is not private to a kernel, at contents W: the four behind the attention kernel's windows
    and the rest. -/
theorem held1_split (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

/-! ## The kernels as segments -/

set_option backward.isDefEq.respectTransparency.types false in
/-- The projection kernel: entered from every buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body0_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (W2_arrs m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel: entered from every buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body1_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hs := Entails.of_eq (held1_split (F := F) c (W3 m c))
    have ha := arrays1_split m c
    iintro ⟨⟨Hub, Hp, HO⟩, -, -⟩
    ihave Hub' := hs $$ Hub
    icases Hub' with ⟨Ha, Hrest⟩
    ihave Ha' := ha $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Entails.of_eq (held1_split (F := F) c (W4 m c)).symm
    have ha := arrays1_join m c
    have hr := Entails.of_eq (rest1_eq m c)
    iintro ⟨Ha, HO, HY, Hrest⟩
    imodintro
    isplitl [Ha Hrest HY]
    · isplitl [Ha Hrest]
      · iapply hs
        isplitl [Ha]
        · iapply ha; iexact Ha
        iapply hr; iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_nofresh (W0 m)),
    .region (reg0 m),
    .host (hseg hostOps1 hostOps1_sub hostOps1_nofresh (W2 m)),
    .region (reg1 m) ]
theorem main_is_segs (c : Dev nD) : main (F := F) c = Pipeline.Seg.run (segs m) := (main_chain c).trans (by chain_rfl)

set_option backward.isDefEq.respectTransparency.types false in
/-- THE RUN: from any memory with zero counters every weakly fair execution of the program terminates, nothing
    faulting, and in every final state each buffer that is not private to a kernel holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Args.lean ====
/-
  The argument arrays at the end of the run: no host operation writes one, the projection kernel only reads the
  weights it is handed, and the attention kernel reads none of them directly, so the last contents at an argument
  are the launch contents.
-/
import proofs.«110760_j64003602645285_2_alg».proof.Proof.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W3_of_host (c : Dev nD) (b : Ref sig .tc) (hb : b ∉ ([main_v2, main_v3, main_v4] : List (Ref sig .tc))) :
    W3 m c (Proc.devRef .tc b) = W2 m c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    refine ⟨?_, ?_, ?_⟩
    · exact StableHlo.devRef_ne_of_ne fun e => hb (e ▸ by simp)
    · exact StableHlo.devRef_ne_of_ne fun e => hb (e ▸ by simp)
    · exact StableHlo.devRef_ne_of_ne fun e => hb (e ▸ by simp)))

theorem W1_of_host (c : Dev nD) (b : Ref sig .tc) (hb : b ≠ main_v0) :
    W1 m c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem W4_arg0 (c : Dev nD) : W4 m c (Proc.devRef .tc main_arg0) = m ((c : Thread nD τ).loc main_arg0) :=
  (W4_of_ne m c main_arg0 (by decide)).trans <| (W3_of_host m c main_arg0 (by decide)).trans <|
    (W2_of_ne m c main_arg0 (by decide)).trans (W1_of_host m c main_arg0 (by decide))
theorem W4_arg1 (c : Dev nD) : W4 m c (Proc.devRef .tc main_arg1) = m ((c : Thread nD τ).loc main_arg1) :=
  (W4_of_ne m c main_arg1 (by decide)).trans <| (W3_of_host m c main_arg1 (by decide)).trans <|
    (W2_arr m c 1).trans <| ((dat0 (V1 m) c).arrAt_in 1 rfl _).trans <| (dat0_A (V1 m) c 1).trans (W1_of_host m c main_arg1 (by decide))
theorem W4_arg2 (c : Dev nD) : W4 m c (Proc.devRef .tc main_arg2) = m ((c : Thread nD τ).loc main_arg2) :=
  (W4_of_ne m c main_arg2 (by decide)).trans <| (W3_of_host m c main_arg2 (by decide)).trans <|
    (W2_of_ne m c main_arg2 (by decide)).trans (W1_of_host m c main_arg2 (by decide))
theorem W4_arg3 (c : Dev nD) : W4 m c (Proc.devRef .tc main_arg3) = m ((c : Thread nD τ).loc main_arg3) :=
  (W4_of_ne m c main_arg3 (by decide)).trans <| (W3_of_host m c main_arg3 (by decide)).trans <|
    (W2_of_ne m c main_arg3 (by decide)).trans (W1_of_host m c main_arg3 (by decide))

end Cert.KernelIdeal.Hand

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Val0.lean ====
/-
  What the projection kernel leaves in its result array, on the extended reals.

  At a grid point (n, m) the body multiplies rows [512 m, 512 m + 512) of the flattened input [4096, 1024] by
  columns [1024 n, 1024 n + 1024) of the weights [1024, 3072] and writes the product to the same rows and columns of
  the result [4096, 3072]. Entry (p, q) of the product of the two blocks is the sum over d of block entries (p, d)
  and (d, q), which are the arrays' entries (512 m + p, d) and (d, 1024 n + q). The 24 blocks tile the result, so
  it ends holding, at every (r, e), the sum over d of input (r, d) times weights (d, e).
-/
import proofs.«110760_j64003602645285_2_alg».proof.Proof.Body0
import proofs.«110760_j64003602645285_2_alg».proof.Proof.LibPlainDot
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The projected array as a function of the flattened input and the weights. -/
def proj0 (a : S4096x1024.Idx → Elt Ideal .f32) (w : S1024x3072.Idx → Elt Ideal .f32) : S4096x3072.Idx → Elt Ideal .bf16 :=
  fun i => ∑ d : Fin 1024, a (ix2 (⟨(i 0).val, (i 0).isLt⟩ : Fin 4096) d) * w (ix2 d (⟨(i 1).val, (i 1).isLt⟩ : Fin 3072))

theorem off2_zero : (![0, 0] : Fin 2 → Nat) = fun _ => 0 := funext fun a => by fin_cases a <;> rfl

/-- The body's arithmetic at an entry: the changes of format are the identity on the extended reals, and the
    product into the zero accumulator is the plain sum. -/
theorem pay0_apply (x0 : Vec Ideal S512x1024 .f32) (x1 : Vec Ideal S1024x1024 .f32) (p : Fin 512) (q : Fin 1024) :
    k0_pay1 (F := Ideal) x0 x1 (ix2 p q) = ∑ d : Fin 1024, x0 (ix2 p d) * x1 (ix2 d q) := by
  unfold k0_pay1
  refine (Cert.LibPlainDot.matmul_zero_apply (M := 512) (K := 1024) (N := 1024) none _ _ p q).trans ?_
  refine Finset.sum_congr rfl fun d _ => ?_
  rw [truncf_apply, truncf_apply, shapeCast_self]

/-- The printed index maps, decided over the grid: the input block moves with the result's rows and sits at column
    block 0; the weights block sits at row block 0 and moves with the result's columns. -/
theorem idx0_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 2 :=
  (by decide +kernel : ∀ t : Fin grid0.N, _)

/-- Every block of the result is some point's. -/
theorem idx0_onto : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

variable (V : (c : Dev nD) → (b : Ref sig .tc) → Buf (Elt Ideal) ((c : Thread nD τ).loc b))

/-- What point t writes back is block t of the projected array. -/
theorem flushed0_eq (c : Dev nD) (t : Fin cfg0.N) :
    (dat0 V c).flushed 2 t = ((cfg0.win 2).blk t).view.read (Elt Ideal) (proj0 (V c main_v0) (V c main_arg1)) := by
  show (cfg0.win 2).cut (grid0.coords t) ((dat0 V c).after 2 t) = _
  rw [dat0_after2]
  unfold tile0
  rw [View.canon_unit_zero off2_zero]
  simp only [View.ld_unit_zero (S := S512x1024) off2_zero, View.ld_unit_zero (S := S1024x1024) off2_zero]
  obtain ⟨e0, e1, e2, e3, e4, e5⟩ := idx0_facts t
  funext j
  obtain ⟨p, q, rfl⟩ : ∃ (p : Fin 512) (q : Fin 1024), j = ix2 p q := ⟨j 0, j 1, eq_ix2 j⟩
  refine (pay0_apply _ _ p q).trans ?_
  show _ = proj0 (V c main_v0) (V c main_arg1) (((cfg0.win 2).blk t).view.emb (ix2 p q))
  unfold proj0
  refine Finset.sum_congr rfl fun d _ => ?_
  refine congrArg₂ (fun a b => (a * b : EReal)) ?_ ?_
  · show V c main_v0 (((cfg0.win 0).blk t).view.emb (ix2 p d)) = V c main_v0 _
    refine congrArg (V c main_v0) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * d.val = d.val; omega
  · show V c main_arg1 (((cfg0.win 1).blk t).view.emb (ix2 d q)) = V c main_arg1 _
    refine congrArg (V c main_arg1) (funext fun a => Fin.ext ?_)
    match a with
    | ⟨0, _⟩ => show win0_1.index t (0 : Fin 2) * 1024 + 1 * d.val = d.val; omega
    | ⟨1, _⟩ => show win0_1.index t (1 : Fin 2) * 1024 + 1 * q.val = win0_2.index t (1 : Fin 2) * 1024 + 1 * q.val; omega

/-- An index of the result is in point t's block iff each coordinate is in the block's range on its axis. -/
theorem mem_blk0 (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- The 24 blocks cover the result. -/
theorem cover0 (i : S4096x3072.Idx) : ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx0_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The result array after the projection kernel. -/
theorem final0 (c : Dev nD) : (dat0 V c).arrAt 2 cfg0.N = proj0 (V c main_v0) (V c main_arg1) :=
  (dat0 V c).arrAt_eq_of_cover 2 (proj0 (V c main_v0) (V c main_arg1)) (fun t _ => flushed0_eq V c t) cover0

end Cert.KernelIdeal.Hand

end
-- ==== Proof.Terms1.lean ====
/-
  The attention body's sixteen heads as one function of the head's column offset.

  The body slices columns [64 h, 64 h + 64) out of the query block [256, 1024] and of the key and value blocks
  [2048, 1024], multiplies queries by transposed keys, scales by 1/8, takes the row softmax, multiplies by the
  values, and stores the [256, 64] result into columns [64 h, 64 h + 64) of a scratch [256, 1024]. The sixteen
  copies of these operations differ only in the offset; each is the one function `headOut` at its offset.
-/
import proofs.«110760_j64003602645285_2_alg».proof.Proof.Gen.KernelIdeal.Skeleton

noncomputable section

namespace Cert.KernelIdeal.Att

open Idealize.ShloMosaic Idealize.SL.Sem Cert.KernelIdeal Cert.KernelIdeal.Gen

variable {F : FTy → Type} [FloatOps F]

/-- One head at column offset `off`: scores q_h k_hᵀ / 8, their row softmax, times v_h. -/
def headOut (off : Fin 2 → ℕ) (hq : S256x1024.Slices off S256x64) (hk : S2048x1024.Slices off S2048x64)
    (v1 : FVec F S256x1024 .bf16) (v3 v5 : FVec F S2048x1024 .bf16) : FVec F S256x64 .f32 :=
  have q : FVec F S256x64 .bf16 := extractStridedSlice S256x64 off v1 hq
  have k : FVec F S2048x64 .bf16 := extractStridedSlice S2048x64 off v3 hk
  have v : FVec F S2048x64 .bf16 := extractStridedSlice S2048x64 off v5 hk
  have s : FVec F S256x2048 .f32 :=
    mulf (matmul dot_S256x64_S2048x64_S256x2048_1_1_0_0_n_n none q k (constant S256x2048 .f32 0x00000000#32))
      (broadcast S256x2048 (Scalar.ofBits .f32 0x3E000000#32))
  have mx : FVec F S256 .f32 :=
    maximumf (broadcast S256 (Scalar.ofBits .f32 0xFF800000#32))
      (multiReduction .maximumf [1] S256 s 0xFF800000#32 reduces_S256x2048_S256 (.inl rfl) rfl)
  have e : FVec F S256x2048 .f32 :=
    exp (subf s (broadcastTo S256x2048 (shapeCast S256x1 mx shapeCasts_S256_S256x1) broadcasts_S256x1_S256x2048))
  have sm : FVec F S256 .f32 := multiReduction .add [1] S256 e 0x00000000#32 reduces_S256x2048_S256 (.inl rfl) rfl
  have p : FVec F S256x2048 .f32 :=
    divf e (broadcastTo S256x2048 (shapeCast S256x1 sm shapeCasts_S256_S256x1) broadcasts_S256x1_S256x2048)
  shapeCast S256x64
    (matmul dot_S256x2048_S2048x64_S256x64_1_0_0_1_n_n none (truncf .bf16 p bitsLt_bf16_f32) v (constant S256x64 .f32 0x00000000#32))
    shapeCasts_S256x64_S256x64

/-! Each stored head is `headOut` at its offset, of the three blocks cast to matrices. -/
theorem head0_eq (v0 : Vec F S1x256x1024 .bf16) (v2 v4 : Vec F S1x2048x1024 .bf16) :
    k1_pay5 v0 v2 v4
      = headOut ![0, 0] slices_S256x1024_o0_0_S256x64 slices_S2048x1024_o0_0_S2048x64 (k1_pay2 v0) (k1_pay3 v2) (k1_pay4 v4) := rfl
theorem head1_eq (v0 : Vec F S1x256x1024 .bf16) (v2 v4 : Vec F S1x2048x1024 .bf16) :
    k1_pay10 (k1_pay6 v4) (k1_pay7 v0 v2) (k1_pay8 v0 v2) (k1_pay9 (F := F))
      = headOut ![0, 64] slices_S256x1024_o0_64_S256x64 slices_S2048x1024_o0_64_S2048x64 (k1_pay2 v0) (k1_pay3 v2) (k1_pay4 v4) := rfl
theorem head2_eq (v0 : Vec F S1x256x1024 .bf16) (v2 v4 : Vec F S1x2048x1024 .bf16) :
    k1_pay11 (k1_pay2 v0) (k1_pay3 v2) (k1_pay4 v4)
      = headOut ![0, 128] slices_S256x1024_o0_128_S256x64 slices_S2048x1024_o0_128_S2048x64 (k1_pay2 v0) (k1_pay3 v2) (k1_pay4 v4) := rfl
theorem head3_eq (v0 : Vec F S1x256x1024 .bf16) (v2 v4 : Vec F S1x2048x1024 .bf16) :
    k1_pay15 (k1_pay12 (k1_pay4 v4)) (k1_pay13 (k1_pay2 v0) (k1_pay3 v2)) (k1_pay14 (k1_pay2 v0) (k1_pay3 v2))
      = headOut ![0, 192] slices_S256x1024_o0_192_S256x64 slices_S2048x1024_o0_192_S2048x64 (k1_pay2 v0) (k1_pay3 v2) (k1_pay4 v4) := rfl
theorem head4_eq (v0 : Vec F S1x256x1024 .bf16) (v2 v4 : Vec F S1x2048x1024 .bf16) :
    k1_pay16 (k1_pay2 v0) (k1_pay3 v2) (k1_pay4 v4)
      = headOut ![0, 256] slices_S256x1024_o0_256_S256x64 slices_S2048x1024_o0_256_S2048x64 (k1_pay2 v0) (k1_pay3 v2) (k1_pay4 v4) := rfl
theorem head5_eq (v0 : Vec F S1x256x1024 .bf16) (v2 v4 : Vec F S1x2048x1024 .bf16) :
    k1_pay19 (k1_pay17 (k1_pay4 v4)) (k1_pay18 (k1_pay2 v0) (k1_pay3 v2))
      = headOut ![0, 320] slices_S256x1024_o0_320_S256x64 slices_S2048x1024_o0_320_S2048x64 (k1_pay2 v0) (k1_pay3 v2) (k1_pay4 v4) := rfl
theorem head6_eq (v0 : Vec F S1x256x1024 .bf16) (v2 v4 : Vec F S1x2048x1024 .bf16) :
    k1_pay20 (k1_pay2 v0) (k1_pay3 v2) (k1_pay4 v4)
      = headOut ![0, 384] slices_S256x1024_o0_384_S256x64 slices_S2048x1024_o0_384_S2048x64 (k1_pay2 v0) (k1_pay3 v2) (k1_pay4 v4) := rfl
theorem head7_eq (v0 : Vec F S1x256x1024 .bf16) (v2 v4 : Vec F S1x2048x1024 .bf16) :
    k1_pay23 (k1_pay21 (k1_pay4 v4)) (k1_pay22 (k1_pay2 v0) (k1_pay3 v2)) (Scalar.ofBits .f32 0x3E000000#32)
      = headOut ![0, 448] slices_S256x1024_o0_448_S256x64 slices_S2048x1024_o0_448_S2048x64 (k1_pay2 v0) (k1_pay3 v2) (k1_pay4 v4) := rfl
theorem head8_eq (v0 : Vec F S1x256x1024 .bf16) (v2 v4 : Vec F S1x2048x1024 .bf16) :
    k1_pay24 (k1_pay2 v0) (k1_pay3 v2) (k1_pay4 v4)
      = headOut ![0, 512] slices_S256x1024_o0_512_S256x64 slices_S2048x1024_o0_512_S2048x64 (k1_pay2 v0) (k1_pay3 v2) (k1_pay4 v4) := rfl
theorem head9_eq (v0 : Vec F S1x256x1024 .bf16) (v2 v4 : Vec F S1x2048x1024 .bf16) :
    k1_pay28 (k1_pay25 (k1_pay2 v0)) (k1_pay26 (k1_pay3 v2)) (k1_pay27 (k1_pay4 v4)) (constant S256x2048 .f32 0x00000000#32)
      = headOut ![0, 576] slices_S256x1024_o0_576_S256x64 slices_S2048x1024_o0_576_S2048x64 (k1_pay2 v0) (k1_pay3 v2) (k1_pay4 v4) := rfl
theorem head10_eq (v0 : Vec F S1x256x1024 .bf16) (v2 v4 : Vec F S1x2048x1024 .bf16) :
    k1_pay29 (k1_pay2 v0) (k1_pay3 v2) (k1_pay4 v4)
      = headOut ![0, 640] slices_S256x1024_o0_640_S256x64 slices_S2048x1024_o0_640_S2048x64 (k1_pay2 v0) (k1_pay3 v2) (k1_pay4 v4) := rfl
theorem head11_eq (v0 : Vec F S1x256x1024 .bf16) (v2 v4 : Vec F S1x2048x1024 .bf16) :
    k1_pay32 (k1_pay4 v4) (k1_pay30 (k1_pay2 v0)) (k1_pay31 (k1_pay3 v2))
      = headOut ![0, 704] slices_S256x1024_o0_704_S256x64 slices_S2048x1024_o0_704_S2048x64 (k1_pay2 v0) (k1_pay3 v2) (k1_pay4 v4) := rfl
theorem head12_eq (v0 : Vec F S1x256x1024 .bf16) (v2 v4 : Vec F S1x2048x1024 .bf16) :
    k1_pay33 (k1_pay2 v0) (k1_pay3 v2) (k1_pay4 v4)
      = headOut ![0, 768] slices_S256x1024_o0_768_S256x64 slices_S2048x1024_o0_768_S2048x64 (k1_pay2 v0) (k1_pay3 v2) (k1_pay4 v4) := rfl
theorem head13_eq (v0 : Vec F S1x256x1024 .bf16) (v2 v4 : Vec F S1x2048x1024 .bf16) :
    k1_pay34 (k1_pay2 v0) (k1_pay3 v2) (k1_pay4 v4)
      = headOut ![0, 832] slices_S256x1024_o0_832_S256x64 slices_S2048x1024_o0_832_S2048x64 (k1_pay2 v0) (k1_pay3 v2) (k1_pay4 v4) := rfl
theorem head14_eq (v0 : Vec F S1x256x1024 .bf16) (v2 v4 : Vec F S1x2048x1024 .bf16) :
    k1_pay36 (k1_pay35 (k1_pay2 v0) (k1_pay3 v2) (k1_pay4 v4))
      = headOut ![0, 896] slices_S256x1024_o0_896_S256x64 slices_S2048x1024_o0_896_S2048x64 (k1_pay2 v0) (k1_pay3 v2) (k1_pay4 v4) := rfl
theorem head15_eq (v0 : Vec F S1x256x1024 .bf16) (v2 v4 : Vec F S1x2048x1024 .bf16) :
    k1_pay37 (k1_pay2 v0) (k1_pay3 v2) (k1_pay4 v4)
      = headOut ![0, 960] slices_S256x1024_o0_960_S256x64 slices_S2048x1024_o0_960_S2048x64 (k1_pay2 v0) (k1_pay3 v2) (k1_pay4 v4) := rfl

end Cert.KernelIdeal.Att

end
-- ==== Proof.Spec.lean ====
/-
  The function both programs compute, written once on the extended reals.

  The input x [2, 2048, 1024] is projected by w_qkv [1024, 3072] into one array whose last axis holds the
  queries (columns 0..1023), the keys (1024..2047) and the values (2048..3071). A column c < 1024 of each
  third belongs to head c / 64 and is coordinate c % 64 inside the head. For a batch entry b, a head h and a
  query row s, the scores against the 2048 key rows are the inner products over the head's 64 coordinates, each
  multiplied by 1/8; the row of scores goes through softmax (its maximum taken against -inf, subtracted, the
  exponentials divided by their sum); the weights average the head's value rows. The attention array
  [2, 2048, 1024] so obtained is multiplied by w_out [1024, 1024] and the bias b_out [1024] is added.
-/
import Idealize.ShloMosaic.PureOps.Ideal
import Idealize.ShloMosaic.Lib.ValueIdx

noncomputable section

open scoped BigOperators

namespace Cert.Spec

open Idealize.ShloMosaic Idealize.ShloMosaic.ValueIdx

/-- The word of -inf, the starting value of a row's maximum. -/
abbrev negInf : EReal := Ideal.ofBits .f32 0xFF800000#32
/-- The word of 1/8 = 1/sqrt 64, the scale of a score. -/
abbrev eighth : EReal := Ideal.ofBits .f32 0x3E000000#32

/-- Column c of the query third of the projected array, -/
def colQ (c : Fin 1024) : Fin 3072 := ⟨c.val, by have := c.isLt; omega⟩
/-- of the key third, -/
def colK (c : Fin 1024) : Fin 3072 := ⟨1024 + c.val, by have := c.isLt; omega⟩
/-- of the value third. -/
def colV (c : Fin 1024) : Fin 3072 := ⟨2048 + c.val, by have := c.isLt; omega⟩
/-- Coordinate j of head h is column 64 h + j. -/
def hcol (h : Fin 16) (j : Fin 64) : Fin 1024 := ⟨64 * h.val + j.val, by have := h.isLt; have := j.isLt; omega⟩
/-- The head of a column, -/
def headOf (c : Fin 1024) : Fin 16 := ⟨c.val / 64, by have := c.isLt; omega⟩
/-- and its coordinate inside the head. -/
def coordOf (c : Fin 1024) : Fin 64 := ⟨c.val % 64, Nat.mod_lt _ (by decide)⟩

theorem hcol_headOf_coordOf (c : Fin 1024) : hcol (headOf c) (coordOf c) = c :=
  Fin.ext (by show 64 * (c.val / 64) + c.val % 64 = c.val; omega)

/-- The maximum of a row of scores, as both programs take it: the fold of max from -inf, once more against -inf. -/
def rowMax {n : ℕ} (f : Fin n → EReal) : EReal := max negInf ((Finset.univ : Finset (Fin n)).fold max negInf f)

/-- The softmax weight of entry t of a row. -/
def soft {n : ℕ} (f : Fin n → EReal) (t : Fin n) : EReal :=
  Ideal.div (Ideal.exp (f t - rowMax f)) (∑ u : Fin n, Ideal.exp (f u - rowMax f))

/-- One head for one query row: the query's 64 coordinates q, the keys' and the values' 2048 rows of 64
    coordinates; coordinate j of the result is the softmax-weighted sum of the values' coordinate j. -/
def headRow (q : Fin 64 → EReal) (k v : Fin 2048 → Fin 64 → EReal) (j : Fin 64) : EReal :=
  ∑ t : Fin 2048, soft (fun t => (∑ i : Fin 64, q i * k t i) * eighth) t * v t j

/-- The projection x · w_qkv. -/
def proj (x : (⟨3, ![2, 2048, 1024]⟩ : Shape).Idx → EReal) (w : (⟨2, ![1024, 3072]⟩ : Shape).Idx → EReal)
    (b : Fin 2) (s : Fin 2048) (e : Fin 3072) : EReal :=
  ∑ d : Fin 1024, x (ix3 b s d) * w (ix2 d e)

/-- The attention array from a projected array p (b, s, e): entry (b, s, c) is coordinate c % 64 of head c / 64
    for query row s of batch entry b. -/
def attn (p : Fin 2 → Fin 2048 → Fin 3072 → EReal) (b : Fin 2) (s : Fin 2048) (c : Fin 1024) : EReal :=
  headRow (fun i => p b s (colQ (hcol (headOf c) i))) (fun t i => p b t (colK (hcol (headOf c) i)))
    (fun t i => p b t (colV (hcol (headOf c) i))) (coordOf c)

/-- The result: attention times w_out, plus the bias. -/
def out (x : (⟨3, ![2, 2048, 1024]⟩ : Shape).Idx → EReal) (wqkv : (⟨2, ![1024, 3072]⟩ : Shape).Idx → EReal)
    (wout : (⟨2, ![1024, 1024]⟩ : Shape).Idx → EReal) (bias : (⟨1, ![1024]⟩ : Shape).Idx → EReal) :
    (⟨3, ![2, 2048, 1024]⟩ : Shape).Idx → EReal :=
  fun i => (∑ d : Fin 1024, attn (proj x wqkv) (i 0) (i 1) d * wout (ix2 d (i 2))) + bias (ix1 (i 2))

end Cert.Spec

end
-- ==== Proof.LibDotNT.lean ====
/-
  A matrix product whose right operand is stored transposed, read at one entry of its result on the extended reals.

  The left operand is [M, K] and the right operand is [N, K]; both are contracted on their second axis and there is
  no batch axis. Entry (p, q) of the product is the sum over k of lhs (p, k) · rhs (q, k). This holds for the vector
  unit's product into a zero accumulator (the zero word denotes 0, and 0 + s = s) and for the host's `dot_general`,
  for all extents M, K, N. A record of dimension numbers is determined by its six lists of axes (its remaining
  field is a proof), so the statements are about `DotDims.transposedRhs M K N` and apply to every record that lists
  the same axes.
-/
import Idealize.ShloMosaic.PureOps.Ideal.Laws
import Idealize.ShloMosaic.Lib.ValueIdx

noncomputable section

open scoped BigOperators

namespace Cert.LibDotNT

open Idealize.ShloMosaic Idealize.ShloMosaic.ValueIdx

variable {M K N : Nat}

/-- The contraction index of the product is its one coordinate, k < K. -/
abbrev kEquiv (M K N : Nat) : (DotDims.transposedRhs M K N).contr.Idx ≃ Fin K :=
  contrEquiv1 (DotDims.transposedRhs M K N) K rfl rfl

/-- The left operand's row axis is the result's first axis: it reads the result entry's row. -/
theorem lhs_row (j : (⟨2, ![M, N]⟩ : Shape).Idx) (κ : (DotDims.transposedRhs M K N).contr.Idx) :
    ((DotDims.transposedRhs M K N).lhsIdx j κ 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column axis is the contracted one: it reads the contraction coordinate. -/
theorem lhs_col (j : (⟨2, ![M, N]⟩ : Shape).Idx) (k : Fin K) :
    ((DotDims.transposedRhs M K N).lhsIdx j ((kEquiv M K N).symm k) 1).val = k.val :=
  ((DotDims.transposedRhs M K N).lhsIdx_val_of_single rfl j _).trans
    (contrEquiv1_symm_val (DotDims.transposedRhs M K N) K rfl rfl k)

/-- The right operand's row axis is the result's second axis: it reads the result entry's column. -/
theorem rhs_row (j : (⟨2, ![M, N]⟩ : Shape).Idx) (κ : (DotDims.transposedRhs M K N).contr.Idx) :
    ((DotDims.transposedRhs M K N).rhsIdx j κ 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column axis is the contracted one. -/
theorem rhs_col (j : (⟨2, ![M, N]⟩ : Shape).Idx) (k : Fin K) :
    ((DotDims.transposedRhs M K N).rhsIdx j ((kEquiv M K N).symm k) 1).val = k.val :=
  ((DotDims.transposedRhs M K N).rhsIdx_val_of_single rfl j _).trans
    (contrEquiv1_symm_val (DotDims.transposedRhs M K N) K rfl rfl k)

/-- At result entry (p, q) and contraction coordinate k the left operand is read at (p, k) -/
theorem lhsIdx_nt (p : Fin M) (q : Fin N) (k : Fin K) :
    (DotDims.transposedRhs M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (q, k). -/
theorem rhsIdx_nt (p : Fin M) (q : Fin N) (k : Fin K) :
    (DotDims.transposedRhs M K N).rhsIdx (ix2 p q) ((kEquiv M K N).symm k) = ix2 q k :=
  funext fun a => Fin.ext (by
    match a with
    | ⟨0, _⟩ => exact rhs_row (ix2 p q) _
    | ⟨1, _⟩ => exact rhs_col (ix2 p q) k)

/-- The sum over the contraction index of the two operands' entries is the sum over k < K of lhs (p, k) · rhs (q, k). -/
theorem sum_contr {φ₁ φ₂ : FTy} (lhs : FVec Ideal ⟨2, ![M, K]⟩ φ₁) (rhs : FVec Ideal ⟨2, ![N, K]⟩ φ₂)
    (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ) : EReal)
      = ∑ k : Fin K, lhs (ix2 p k) * rhs (ix2 q k) := by
  rw [← Equiv.sum_comp (kEquiv M K N).symm]
  exact Finset.sum_congr rfl fun k _ =>
    congrArg₂ (fun a b => (lhs a * rhs b : EReal)) (lhsIdx_nt p q k) (rhsIdx_nt p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant (F := Ideal) ⟨2, ![M, N]⟩ .f32 0x00000000#32) (ix2 p q)
      = ∑ k : Fin K, lhs (ix2 p k) * rhs (ix2 q k) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_contr lhs rhs p q

end Cert.LibDotNT

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibBlockRows.lean ====
/-
  Three readings of array operations at one entry, general in the extents, that the attention block needs beside
  the column and row-sum readings: a block with two leading unit axes read as a matrix, a matrix given two leading
  unit axes, and the maximum of a matrix's rows on the extended reals.

  A block [1, 1, a, b] holds one matrix. In row-major order the position of (0, 0, i, j) is
  ((0 · 1 + 0) · a + i) · b + j = i · b + j, the position of (i, j) in [a, b], so dropping or adding the two unit
  axes moves no entry. The maximum of a row is the fold of max over the row's entries, from the accumulator's value.
-/
import Idealize.ShloMosaic.PureOps.Ideal.Laws
import Idealize.ShloMosaic.Lib.ValueIdx
import Idealize.ShloMosaic.Lib.Pipeline.Value

noncomputable section

open scoped BigOperators

namespace Cert.LibBlockRows

open Idealize.ShloMosaic Idealize.ShloMosaic.ValueIdx

section Layout
variable {α : Type}

/-- A block [1, 1, a, b] cast to the matrix [a, b] reads, at (i, j), the block at (0, 0, i, j): both have the
    row-major position i · b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A matrix [a, b] cast to a block [1, 1, a, b] reads, at (u, u', i, j), the matrix at (i, j): the two unit
    coordinates are 0, and the row-major positions agree as above. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Layout

/-- A maximum reduction of a matrix [a, b] along its second axis is at n the fold of max, from the accumulator's
    value, over the entries (n, m), m < b. The library reads the reduction as the fold over the reduced axis of
    the source at the result index with the reduced coordinate put back in; for a matrix reduced along its columns
    that index is (n, m), coordinate by coordinate. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction (F := Ideal) .maximumf [1] ⟨1, ![a]⟩ src acc h hφ hacc (ix1 n)
      = (Finset.univ : Finset (Fin b)).fold max (Ideal.ofBits .f32 acc) (fun m => src (ix2 n m)) :=
  (Ideal.multiReduction_maximumf_single src acc h hφ hacc (ix1 n)).trans
    (congrArg (fun f : Fin b → EReal => (Finset.univ : Finset (Fin b)).fold max (Ideal.ofBits .f32 acc) f)
      (funext fun m => congrArg src (funext fun c => Fin.ext (by
        match c with
        | ⟨0, _⟩ => rfl
        | ⟨1, _⟩ => rfl))))

end Cert.LibBlockRows

end
-- ==== Proof.HeadValue.lean ====
/-
  One head of the attention body read at one entry, on the extended reals.

  A head takes the query block's columns [o, o + 64) as q [256, 64] and the same columns of the key and value
  blocks as k, v [2048, 64]. Its four stages are read one after the other at an entry:

    scores   s (r, t) = (Σ_i q (r, i) · k (t, i)) · 1/8,
    maxima   m (r)    = max (-inf) (fold of max from -inf over the row s (r, ·)),
    weights  p (r, t) = exp (s (r, t) - m (r)) / Σ_u exp (s (r, u) - m (r)),
    result   o (r, j) = Σ_t p (r, t) · v (t, j).

  Every float operation is exact and a change of format keeps the value, so these are equations between extended
  reals; the result is the specification's "headRow" of row r of q against the rows of k and v.
-/
import proofs.«110760_j64003602645285_2_alg».proof.Proof.Terms1
import proofs.«110760_j64003602645285_2_alg».proof.Proof.Spec
import proofs.«110760_j64003602645285_2_alg».proof.Proof.LibDotNT
import proofs.«110760_j64003602645285_2_alg».proof.Proof.LibPlainDot
import proofs.«110760_j64003602645285_2_alg».proof.Proof.LibColumn
import proofs.«110760_j64003602645285_2_alg».proof.Proof.LibBlockRows
import Idealize.ShloMosaic.Lib.ValueLayout

noncomputable section

open scoped BigOperators

namespace Cert.KernelIdeal.Att

open Idealize.ShloMosaic Idealize.SL.Sem Idealize.ShloMosaic.ValueIdx Cert.KernelIdeal Cert.KernelIdeal.Gen

/-! ## The stages of a head, named -/

section Stages
variable {F : FTy → Type} [FloatOps F]

/-- The scores: q kᵀ into a zero accumulator, every entry multiplied by the word of 1/8. -/
def scores (q : FVec F S256x64 .bf16) (k : FVec F S2048x64 .bf16) : FVec F S256x2048 .f32 :=
  mulf (matmul dot_S256x64_S2048x64_S256x2048_1_1_0_0_n_n none q k (constant S256x2048 .f32 0x00000000#32))
    (broadcast S256x2048 (Scalar.ofBits .f32 0x3E000000#32))

/-- The row maxima: the reduction by max along the rows from the word of -inf, once more against -inf. -/
def rowMaxima (s : FVec F S256x2048 .f32) : FVec F S256 .f32 :=
  maximumf (broadcast S256 (Scalar.ofBits .f32 0xFF800000#32))
    (multiReduction .maximumf [1] S256 s 0xFF800000#32 reduces_S256x2048_S256 (.inl rfl) rfl)

/-- The exponentials of the scores less their row's maximum. -/
def expShifted (s : FVec F S256x2048 .f32) : FVec F S256x2048 .f32 :=
  exp (subf s (broadcastTo S256x2048 (shapeCast S256x1 (rowMaxima s) shapeCasts_S256_S256x1) broadcasts_S256x1_S256x2048))

/-- The softmax weights: each exponential divided by the sum of its row. -/
def softmaxRows (s : FVec F S256x2048 .f32) : FVec F S256x2048 .f32 :=
  divf (expShifted s)
    (broadcastTo S256x2048
      (shapeCast S256x1 (multiReduction .add [1] S256 (expShifted s) 0x00000000#32 reduces_S256x2048_S256 (.inl rfl) rfl)
        shapeCasts_S256_S256x1)
      broadcasts_S256x1_S256x2048)

/-- A head is the weights of its scores, changed to the narrow format, times its values. -/
theorem headOut_eq (off : Fin 2 → ℕ) (hq : S256x1024.Slices off S256x64) (hk : S2048x1024.Slices off S2048x64)
    (v1 : FVec F S256x1024 .bf16) (v3 v5 : FVec F S2048x1024 .bf16) :
    headOut off hq hk v1 v3 v5
      = shapeCast S256x64
          (matmul dot_S256x2048_S2048x64_S256x64_1_0_0_1_n_n none
            (truncf .bf16
              (softmaxRows (scores (extractStridedSlice S256x64 off v1 hq) (extractStridedSlice S2048x64 off v3 hk)))
              bitsLt_bf16_f32)
            (extractStridedSlice S2048x64 off v5 hk) (constant S256x64 .f32 0x00000000#32))
          shapeCasts_S256x64_S256x64 := rfl

end Stages

/-! ## The stages at an entry, on the extended reals -/

/-- A score: the inner product of query row r and key row t over the 64 coordinates, times 1/8. The product with
    the keys stored as rows sums lhs (r, i) · rhs (t, i); the zero accumulator adds nothing; the second factor is
    the same word at every entry. -/
theorem scores_apply (q : FVec Ideal S256x64 .bf16) (k : FVec Ideal S2048x64 .bf16) (r : Fin 256) (t : Fin 2048) :
    scores q k (ix2 r t) = (∑ i : Fin 64, q (ix2 r i) * k (ix2 t i)) * Spec.eighth :=
  congrArg (fun x : EReal => x * Spec.eighth) (LibDotNT.matmul_zero_apply none q k r t)

/-- A row's maximum is the specification's: max of -inf and the fold of max from -inf over the row. -/
theorem rowMaxima_apply (s : FVec Ideal S256x2048 .f32) (r : Fin 256) :
    rowMaxima s (ix1 r) = Spec.rowMax (fun t : Fin 2048 => s (ix2 r t)) :=
  congrArg (fun x : EReal => max Spec.negInf x)
    (LibBlockRows.rowMax_apply s 0xFF800000#32 reduces_S256x2048_S256 (.inl rfl) rfl r)

/-- The column of maxima repeated along the rows has the maximum of row r at (r, t): the shifted exponential
    at (r, t) is exp (s (r, t) - m (r)). -/
theorem expShifted_apply (s : FVec Ideal S256x2048 .f32) (r : Fin 256) (t : Fin 2048) :
    expShifted s (ix2 r t) = Ideal.exp (s (ix2 r t) - Spec.rowMax (fun u : Fin 2048 => s (ix2 r u))) :=
  congrArg (fun m : EReal => Ideal.exp (s (ix2 r t) - m))
    ((LibColumn.column_apply (rowMaxima s) shapeCasts_S256_S256x1 broadcasts_S256x1_S256x2048 r t).trans
      (rowMaxima_apply s r))

/-- The weights are the specification's softmax of the row: the numerator is the shifted exponential, and the
    denominator, the column of row sums repeated along the rows, is at (r, t) the sum over u of the shifted
    exponentials of row r. -/
theorem softmaxRows_apply (s : FVec Ideal S256x2048 .f32) (r : Fin 256) (t : Fin 2048) :
    softmaxRows s (ix2 r t) = Spec.soft (fun u : Fin 2048 => s (ix2 r u)) t :=
  congrArg₂ Ideal.div (expShifted_apply s r t)
    ((LibColumn.column_apply _ shapeCasts_S256_S256x1 broadcasts_S256x1_S256x2048 r t).trans
      ((LibColumn.rowSum_apply (expShifted s) reduces_S256x2048_S256 (.inl rfl) rfl r).trans
        (Finset.sum_congr rfl fun u _ => expShifted_apply s r u)))

/-! ## A head at an entry -/

/-- Entry (r, j) of the head at column offset o is the specification's head for query row r: coordinate i of
    the query is column o + i of row r of the query block, coordinate i of key t is column o + i of row t of
    the key block, and likewise the values. The last cast is between equal shapes and moves nothing; the product
    with the values sums p (r, t) · v (t, j) over the 2048 key rows; the change of format keeps each weight;
    each weight is the softmax of the row of scores, and each score is the scaled inner product of the slices. -/
theorem headOut_apply (o : ℕ) (ho : o + 64 ≤ 1024) (hq : Cert.KernelIdeal.S256x1024.Slices ![0, o] Cert.KernelIdeal.S256x64)
    (hk : Cert.KernelIdeal.S2048x1024.Slices ![0, o] Cert.KernelIdeal.S2048x64)
    (v1 : FVec Ideal S256x1024 .bf16) (v3 v5 : FVec Ideal S2048x1024 .bf16) (r : Fin 256) (j : Fin 64) :
    headOut (F := Ideal) ![0, o] hq hk v1 v3 v5 (ix2 r j)
      = Cert.Spec.headRow (fun i => v1 (ix2 r ⟨o + i.val, by omega⟩)) (fun t i => v3 (ix2 t ⟨o + i.val, by omega⟩))
          (fun t i => v5 (ix2 t ⟨o + i.val, by omega⟩)) j := by
  rw [headOut_eq]
  -- the cast between equal shapes
  refine (congrFun (shapeCast_self _ shapeCasts_S256x64_S256x64) (ix2 r j)).trans ?_
  -- the product with the values, entry by entry
  refine (LibPlainDot.matmul_zero_apply none _ _ r j).trans ?_
  refine Finset.sum_congr rfl fun t _ => ?_
  refine congrArg₂ (fun a b : EReal => a * b) ?_ (slice2_axis1_eq o v5 hk t j)
  -- the weight: the softmax of the row of scores, whose entries are the scaled inner products of the slices
  refine (softmaxRows_apply _ r t).trans ?_
  refine congrArg (fun f : Fin 2048 → EReal => Spec.soft f t) (funext fun u => ?_)
  refine (scores_apply _ _ r u).trans ?_
  refine congrArg (fun x : EReal => x * Spec.eighth) (Finset.sum_congr rfl fun i _ => ?_)
  exact congrArg₂ (fun a b : EReal => a * b) (slice2_axis1_eq o v1 hq r i) (slice2_axis1_eq o v3 hk u i)

end Cert.KernelIdeal.Att

end
-- ==== Proof.OutProj.lean ====
/-
  The ends of the attention body read at one entry, on the extended reals: the three blocks it loads, cast to
  matrices, and the value it stores, the output projection plus the bias.

  A block [1, n, 1024] holds one matrix; dropping the unit axis moves no entry, since the row-major position of
  (0, r, c) is (0 · n + r) · 1024 + c, the position of (r, c) in [n, 1024]. The stored value is the scratch matrix a
  [256, 1024] of the sixteen heads times the weights w [1024, 1024] into a zero accumulator, plus the bias row
  [1, 1024] repeated along the 256 rows, given a leading unit axis: entry (0, r, e) is
  Σ_d a (r, d) · w (d, e) + bias (0, e).
-/
import proofs.«110760_j64003602645285_2_alg».proof.Proof.Gen.KernelIdeal.Skeleton
import proofs.«110760_j64003602645285_2_alg».proof.Proof.LibPlainDot
import Idealize.ShloMosaic.Lib.ValueLayout

noncomputable section

open scoped BigOperators

namespace Cert.KernelIdeal.Att

open Idealize.ShloMosaic Idealize.SL.Sem Idealize.ShloMosaic.ValueIdx Cert.KernelIdeal Cert.KernelIdeal.Gen

/-! ## The loaded blocks as matrices -/

/-- The query block [1, 256, 1024] as a matrix: entry (r, c) is the block's entry (0, r, c). -/
theorem k1_pay2_apply (q : Vec Ideal S1x256x1024 .bf16) (r : Fin 256) (c : Fin 1024) :
    k1_pay2 (F := Ideal) q (ix2 r c) = q (ix3 (0 : Fin 1) r c) :=
  shapeCast_1ab_ab_apply q shapeCasts_S1x256x1024_S256x1024 r c

/-- The key block [1, 2048, 1024] as a matrix: entry (r, c) is the block's entry (0, r, c). -/
theorem k1_pay3_apply (k : Vec Ideal S1x2048x1024 .bf16) (r : Fin 2048) (c : Fin 1024) :
    k1_pay3 (F := Ideal) k (ix2 r c) = k (ix3 (0 : Fin 1) r c) :=
  shapeCast_1ab_ab_apply k shapeCasts_S1x2048x1024_S2048x1024 r c

/-- The value block [1, 2048, 1024] as a matrix: entry (r, c) is the block's entry (0, r, c). -/
theorem k1_pay4_apply (v : Vec Ideal S1x2048x1024 .bf16) (r : Fin 2048) (c : Fin 1024) :
    k1_pay4 (F := Ideal) v (ix2 r c) = v (ix3 (0 : Fin 1) r c) :=
  shapeCast_1ab_ab_apply v shapeCasts_S1x2048x1024_S2048x1024 r c

/-! ## The stored value -/

/-- The projected matrix at (r, e): the product sums a (r, d) · w (d, e) over the 1024 columns of the scratch
    (the change of format keeps a's entries, the cast of w is between equal shapes, the zero accumulator adds
    nothing), and the bias row repeated along the rows gives bias (0, e) at every row. -/
theorem k1_pay38_apply (a : Vec Ideal S256x1024 .f32) (w : Vec Ideal S1024x1024 .bf16) (bias : Vec Ideal S1x1024 .f32)
    (r : Fin 256) (e : Fin 1024) :
    k1_pay38 (F := Ideal) a w bias (ix2 r e) = (∑ d : Fin 1024, a (ix2 r d) * w (ix2 d e)) + bias (ix2 (0 : Fin 1) e) := by
  refine congrArg₂ (fun x y : EReal => x + y) ?_ ?_
  · -- the product, with the cast of the weights removed entry by entry
    refine (LibPlainDot.matmul_zero_apply none _ _ r e).trans ?_
    exact Finset.sum_congr rfl fun d _ =>
      congrArg (fun x : EReal => a (ix2 r d) * x) (congrFun (shapeCast_self w shapeCasts_S1024x1024_S1024x1024) (ix2 d e))
  · -- the bias row at row r is its one row
    exact (broadcastTo_1b_ab_apply _ broadcasts_S1x1024_S256x1024 r e).trans
      (congrFun (shapeCast_self bias shapeCasts_S1x1024_S1x1024) (ix2 (0 : Fin 1) e))

/-- The stored block [1, 256, 1024] at (0, r, e): adding the unit axis moves no entry. -/
theorem outProj_apply (a : Vec Ideal S256x1024 .f32) (w : Vec Ideal S1024x1024 .bf16) (bias : Vec Ideal S1x1024 .f32)
    (r : Fin 256) (e : Fin 1024) :
    Cert.KernelIdeal.Gen.k1_pay1 (F := Ideal) (Cert.KernelIdeal.Gen.k1_pay38 a w bias) (ix3 (0 : Fin 1) r e)
      = (∑ d : Fin 1024, a (ix2 r d) * w (ix2 d e)) + bias (ix2 (0 : Fin 1) e) :=
  (shapeCast_ab_1ab_apply (k1_pay38 (F := Ideal) a w bias) shapeCasts_S256x1024_S1x256x1024 (0 : Fin 1) r e).trans
    (k1_pay38_apply a w bias r e)

end Cert.KernelIdeal.Att

end
-- ==== Proof.Val1.lean ====
/-
  What the attention kernel leaves in its result array, on the extended reals.

  The sixteen stores into the scratch are the sixteen blocks [256, 64] of ONE matrix [256, 1024]: its entry (r, d)
  is coordinate d % 64 of head d / 64 for query row r, computed from columns [64 (d / 64), 64 (d / 64) + 64) of
  the three loaded blocks. The stores tile the scratch, so the scratch read back is that matrix, and the stored
  output block is the matrix times the output weights plus the bias. At grid point (b, qi) the query block is rows
  [256 qi, 256 qi + 256) of batch entry b in the first third of the projected array's columns, the key and value
  blocks are all 2048 rows of batch entry b in the second and third thirds, and the output block is the same rows of
  the result. The 16 output blocks tile the result, so it ends holding, at every (b, s, e), the sum over d of the
  attention entry (b, s, d) times weights (d, e), plus bias (e).
-/
import proofs.«110760_j64003602645285_2_alg».proof.Proof.Body1
import proofs.«110760_j64003602645285_2_alg».proof.Proof.HeadValue
import proofs.«110760_j64003602645285_2_alg».proof.Proof.OutProj
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Att

theorem off2_zero' : (![0, 0] : Fin 2 → Nat) = fun _ => 0 := funext fun a => by fin_cases a <;> rfl
theorem off3_zero : (![0, 0, 0] : Fin 3 → Nat) = fun _ => 0 := funext fun a => by fin_cases a <;> rfl

/-- Softmax attention of one query row against rows of keys and values depends only on the three families. -/
theorem headRow_congr {q q' : Fin 64 → EReal} {k k' v v' : Fin 2048 → Fin 64 → EReal} (hq : q = q') (hk : k = k') (hv : v = v')
    (j : Fin 64) : Spec.headRow q k v j = Spec.headRow q' k' v' j := by subst hq; subst hk; subst hv; rfl

section Scratch

variable (y0 : Vec Ideal S1x256x1024 .bf16) (y1 y2 : Vec Ideal S1x2048x1024 .bf16)

/-- The matrix of the sixteen heads: entry (r, d) is coordinate d % 64 of head d / 64 for query row r. -/
def heads : S256x1024.Idx → Elt Ideal .f32 := fun y =>
  Spec.headRow (fun i => y0 (ix3 (0 : Fin 1) (⟨(y 0).val, (y 0).isLt⟩ : Fin 256) (Spec.hcol (Spec.headOf ⟨(y 1).val, (y 1).isLt⟩) i)))
    (fun t i => y1 (ix3 (0 : Fin 1) t (Spec.hcol (Spec.headOf ⟨(y 1).val, (y 1).isLt⟩) i)))
    (fun t i => y2 (ix3 (0 : Fin 1) t (Spec.hcol (Spec.headOf ⟨(y 1).val, (y 1).isLt⟩) i)))
    (Spec.coordOf ⟨(y 1).val, (y 1).isLt⟩)

/-- The head stored at column offset o = 64 h is the block of that matrix at columns [o, o + 64): local entry
    (r, j) sits at (r, o + j), whose head is h and whose coordinate is j. -/
theorem piece_ok (h : Fin 16) (o : ℕ) (ho : o = 64 * h.val) (hq : S256x1024.Slices ![0, o] S256x64) (hk : S2048x1024.Slices ![0, o] S2048x64)
    (inb : ∀ a, (![0, o] : Fin 2 → ℕ) a + S256x64.size a ≤ S256x1024.size a) (x : S256x64.Idx) :
    headOut (F := Ideal) ![0, o] hq hk (k1_pay2 y0) (k1_pay3 y1) (k1_pay4 y2) x
      = heads y0 y1 y2 ((Rect.unit (s := S256x1024) ![0, o] S256x64.size inb).emb x) := by
  subst ho
  obtain ⟨r, j, rfl⟩ : ∃ (r : Fin 256) (j : Fin 64), x = ix2 r j := ⟨x 0, x 1, eq_ix2 x⟩
  have hh := h.isLt
  have hj := j.isLt
  refine (headOut_apply (64 * h.val) (by omega) hq hk _ _ _ r j).trans ?_
  refine (headRow_congr (q' := fun i => y0 (ix3 (0 : Fin 1) r (Spec.hcol h i))) (k' := fun t i => y1 (ix3 (0 : Fin 1) t (Spec.hcol h i)))
    (v' := fun t i => y2 (ix3 (0 : Fin 1) t (Spec.hcol h i)))
    (funext fun i => k1_pay2_apply y0 r _) (funext fun t => funext fun i => k1_pay3_apply y1 t _)
    (funext fun t => funext fun i => k1_pay4_apply y2 t _) j).trans ?_
  unfold heads
  have e0 : (⟨((Rect.unit (s := S256x1024) ![0, 64 * h.val] S256x64.size inb).emb (ix2 r j) 0).val,
      ((Rect.unit (s := S256x1024) ![0, 64 * h.val] S256x64.size inb).emb (ix2 r j) 0).isLt⟩ : Fin 256) = r :=
    Fin.ext (by rw [Rect.emb_apply]; show 0 + 1 * r.val = r.val; omega)
  have e1 : (⟨((Rect.unit (s := S256x1024) ![0, 64 * h.val] S256x64.size inb).emb (ix2 r j) 1).val,
      ((Rect.unit (s := S256x1024) ![0, 64 * h.val] S256x64.size inb).emb (ix2 r j) 1).isLt⟩ : Fin 1024) = Spec.hcol h j :=
    Fin.ext (by rw [Rect.emb_apply]; show 64 * h.val + 1 * j.val = 64 * h.val + j.val; omega)
  rw [e0, e1]
  have eh : Spec.headOf (Spec.hcol h j) = h := Fin.ext (by show (64 * h.val + j.val) / 64 = h.val; omega)
  have ec : Spec.coordOf (Spec.hcol h j) = j := Fin.ext (by show (64 * h.val + j.val) % 64 = j.val; omega)
  rw [eh, ec]

/-- Every store is a block of that matrix. -/
theorem pieces_ok : ∀ p ∈ scratchStores (F := Ideal) y0 y1 y2, ∀ x : p.1.shape.Idx, p.2 x = heads y0 y1 y2 (p.1.emb x) := by
  intro p hp
  unfold scratchStores at hp
  simp only [List.mem_cons, List.not_mem_nil, or_false] at hp
  rcases hp with rfl | rfl | rfl | rfl | rfl | rfl | rfl | rfl | rfl | rfl | rfl | rfl | rfl | rfl | rfl | rfl
  · intro x; exact (congrFun (head15_eq y0 y1 y2) x).trans (piece_ok y0 y1 y2 15 960 rfl _ _ inb_S256x1024_S256x64_0_960 x)
  · intro x; exact (congrFun (head14_eq y0 y1 y2) x).trans (piece_ok y0 y1 y2 14 896 rfl _ _ inb_S256x1024_S256x64_0_896 x)
  · intro x; exact (congrFun (head13_eq y0 y1 y2) x).trans (piece_ok y0 y1 y2 13 832 rfl _ _ inb_S256x1024_S256x64_0_832 x)
  · intro x; exact (congrFun (head12_eq y0 y1 y2) x).trans (piece_ok y0 y1 y2 12 768 rfl _ _ inb_S256x1024_S256x64_0_768 x)
  · intro x; exact (congrFun (head11_eq y0 y1 y2) x).trans (piece_ok y0 y1 y2 11 704 rfl _ _ inb_S256x1024_S256x64_0_704 x)
  · intro x; exact (congrFun (head10_eq y0 y1 y2) x).trans (piece_ok y0 y1 y2 10 640 rfl _ _ inb_S256x1024_S256x64_0_640 x)
  · intro x; exact (congrFun (head9_eq y0 y1 y2) x).trans (piece_ok y0 y1 y2 9 576 rfl _ _ inb_S256x1024_S256x64_0_576 x)
  · intro x; exact (congrFun (head8_eq y0 y1 y2) x).trans (piece_ok y0 y1 y2 8 512 rfl _ _ inb_S256x1024_S256x64_0_512 x)
  · intro x; exact (congrFun (head7_eq y0 y1 y2) x).trans (piece_ok y0 y1 y2 7 448 rfl _ _ inb_S256x1024_S256x64_0_448 x)
  · intro x; exact (congrFun (head6_eq y0 y1 y2) x).trans (piece_ok y0 y1 y2 6 384 rfl _ _ inb_S256x1024_S256x64_0_384 x)
  · intro x; exact (congrFun (head5_eq y0 y1 y2) x).trans (piece_ok y0 y1 y2 5 320 rfl _ _ inb_S256x1024_S256x64_0_320 x)
  · intro x; exact (congrFun (head4_eq y0 y1 y2) x).trans (piece_ok y0 y1 y2 4 256 rfl _ _ inb_S256x1024_S256x64_0_256 x)
  · intro x; exact (congrFun (head3_eq y0 y1 y2) x).trans (piece_ok y0 y1 y2 3 192 rfl _ _ inb_S256x1024_S256x64_0_192 x)
  · intro x; exact (congrFun (head2_eq y0 y1 y2) x).trans (piece_ok y0 y1 y2 2 128 rfl _ _ inb_S256x1024_S256x64_0_128 x)
  · intro x; exact (congrFun (head1_eq y0 y1 y2) x).trans (piece_ok y0 y1 y2 1 64 rfl _ _ inb_S256x1024_S256x64_0_64 x)
  · intro x; exact (congrFun (head0_eq y0 y1 y2) x).trans (piece_ok y0 y1 y2 0 0 rfl _ _ inb_S256x1024_S256x64_0_0 x)

/-- The sixteen rectangles tile the scratch. -/
theorem stores_cover (y : S256x1024.Idx) : ∃ p ∈ scratchStores (F := Ideal) y0 y1 y2, y ∈ p.1.set :=
  View.cover_of_tiledL (scratchStores (F := Ideal) y0 y1 y2) S256x64.size (by rfl) y

/-- The scratch read back whole is the matrix of the sixteen heads. -/
theorem scratchRead_eq : scratchRead (F := Ideal) y0 y1 y2 = heads y0 y1 y2 := by
  funext y
  show View.ld (View.canon (scratchStores (F := Ideal) y0 y1 y2)) wholeS1 y = _
  rw [View.ld_unit_zero (S := S256x1024) off2_zero']
  exact View.canon_apply_of_pieces (heads y0 y1 y2) _ (pieces_ok y0 y1 y2) y (stores_cover y0 y1 y2 y)

end Scratch

/-- The stored output block at (0, r, e): the matrix of heads times the weights, plus the bias. -/
theorem tile1_apply (x0 : Vec Ideal S1x256x1024 .bf16) (x1 x2 : Vec Ideal S1x2048x1024 .bf16) (x3 : Vec Ideal S1024x1024 .bf16)
    (x4 : Vec Ideal S1x1024 .f32) (r : Fin 256) (e : Fin 1024) :
    tile1 (F := Ideal) x0 x1 x2 x3 x4 (ix3 (0 : Fin 1) r e)
      = (∑ d : Fin 1024, heads x0 x1 x2 (ix2 r d) * x3 (ix2 d e)) + x4 (ix2 (0 : Fin 1) e) := by
  unfold tile1
  rw [View.canon_unit_zero off3_zero]
  simp only [View.ld_unit_zero (S := S1x256x1024) off3_zero, View.ld_unit_zero (S := S1x2048x1024) off3_zero,
    View.ld_unit_zero (S := S1024x1024) off2_zero', View.ld_unit_zero (S := S1x1024) off2_zero']
  rw [scratchRead_eq]
  exact outProj_apply _ _ _ r e

/-- The result as a function of the projected array, the output weights and the bias row. -/
def attn1 (p : S2x2048x3072.Idx → Elt Ideal .bf16) (w : S1024x1024.Idx → Elt Ideal .bf16) (bias : S1x1024.Idx → Elt Ideal .f32) :
    S2x2048x1024.Idx → Elt Ideal .f32 :=
  fun i => (∑ d : Fin 1024, Spec.attn (fun b s e => p (ix3 b s e)) ⟨(i 0).val, (i 0).isLt⟩ ⟨(i 1).val, (i 1).isLt⟩ d
      * w (ix2 d (⟨(i 2).val, (i 2).isLt⟩ : Fin 1024))) + bias (ix2 (0 : Fin 1) (⟨(i 2).val, (i 2).isLt⟩ : Fin 1024))

/-- The printed index maps, decided over the grid. At point (b, qi): the query block is (b, qi, 0), the key block
    (b, 0, 1), the value block (b, 0, 2), the weights and the bias sit at block 0, the output block is (b, qi, 0). -/
theorem idx1_facts : ∀ t : Fin cfg1.N,
    win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 1
    ∧ win1_2.index t (0 : Fin 3) = win1_5.index t (0 : Fin 3) ∧ win1_2.index t (1 : Fin 3) = 0 ∧ win1_2.index t (2 : Fin 3) = 2
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) ≤ 1 ∧ win1_5.index t (1 : Fin 3) ≤ 7 ∧ win1_5.index t (2 : Fin 3) = 0 :=
  (by decide +kernel : ∀ t : Fin grid1.N, _)

/-- Every block of the result is some point's. -/
theorem idx1_onto : ∀ (q0 : Fin 2) (q1 : Fin 8), ∃ t : Fin cfg1.N, win1_5.index t = ![q0.val, q1.val, 0] :=
  (by decide +kernel : ∀ (q0 : Fin 2) (q1 : Fin 8), ∃ t : Fin grid1.N, win1_5.index t = ![q0.val, q1.val, 0])

variable (V : (c : Dev nD) → (b : Ref sig .tc) → Buf (Elt Ideal) ((c : Thread nD τ).loc b))

/-- What point t writes back is block t of the result function. -/
theorem flushed1_eq (c : Dev nD) (t : Fin cfg1.N) :
    (dat1 V c).flushed 5 t = ((cfg1.win 5).blk t).view.read (Elt Ideal) (attn1 (V c main_v2) (V c main_v3) (V c main_v4)) := by
  show (cfg1.win 5).cut (grid1.coords t) ((dat1 V c).after 5 t) = _
  rw [dat1_after5]
  obtain ⟨a0, a1, a2, b0, b1, b2, c0, c1, c2, d0, d1, f0, f1, g0, g1, g2⟩ := idx1_facts t
  funext j
  obtain ⟨u, r, e, rfl⟩ : ∃ (u : Fin 1) (r : Fin 256) (e : Fin 1024), j = ix3 u r e := ⟨j 0, j 1, j 2, eq_ix3 j⟩
  obtain rfl : u = 0 := Fin.ext (by omega)
  refine (tile1_apply _ _ _ _ _ r e).trans ?_
  show _ = attn1 (V c main_v2) (V c main_v3) (V c main_v4) (((cfg1.win 5).blk t).view.emb (ix3 (0 : Fin 1) r e))
  unfold attn1
  -- the output entry's coordinates in the result array
  have hB : win1_5.index t (0 : Fin 3) * 1 + 1 * 0 < 2 := by omega
  have hS : win1_5.index t (1 : Fin 3) * 256 + 1 * r.val < 2048 := by have := r.isLt; omega
  have e0 : (⟨((((cfg1.win 5).blk t).view.emb (ix3 (0 : Fin 1) r e)) 0).val, ((((cfg1.win 5).blk t).view.emb (ix3 (0 : Fin 1) r e)) 0).isLt⟩ : Fin 2)
      = ⟨win1_5.index t (0 : Fin 3) * 1 + 1 * 0, hB⟩ := Fin.ext rfl
  have e1 : (⟨((((cfg1.win 5).blk t).view.emb (ix3 (0 : Fin 1) r e)) 1).val, ((((cfg1.win 5).blk t).view.emb (ix3 (0 : Fin 1) r e)) 1).isLt⟩ : Fin 2048)
      = ⟨win1_5.index t (1 : Fin 3) * 256 + 1 * r.val, hS⟩ := Fin.ext rfl
  have e2 : (⟨((((cfg1.win 5).blk t).view.emb (ix3 (0 : Fin 1) r e)) 2).val, ((((cfg1.win 5).blk t).view.emb (ix3 (0 : Fin 1) r e)) 2).isLt⟩ : Fin 1024)
      = e := Fin.ext (by show win1_5.index t (2 : Fin 3) * 1024 + 1 * e.val = e.val; omega)
  rw [e0, e1, e2]
  refine congrArg₂ (fun a b => (a + b : EReal)) (Finset.sum_congr rfl fun d _ => congrArg₂ (fun a b => (a * b : EReal)) ?_ ?_) ?_
  · -- the attention entry: the three blocks' rows and columns in the projected array
    unfold heads Spec.attn
    refine headRow_congr (funext fun i => ?_) (funext fun s => funext fun i => ?_) (funext fun s => funext fun i => ?_) _
    · show V c main_v2 (((cfg1.win 0).blk t).view.emb (ix3 (0 : Fin 1) r (Spec.hcol (Spec.headOf d) i))) = V c main_v2 _
      refine congrArg (V c main_v2) (funext fun a => Fin.ext ?_)
      match a with
      | ⟨0, _⟩ => show win1_0.index t (0 : Fin 3) * 1 + 1 * 0 = win1_5.index t (0 : Fin 3) * 1 + 1 * 0; omega
      | ⟨1, _⟩ => show win1_0.index t (1 : Fin 3) * 256 + 1 * r.val = win1_5.index t (1 : Fin 3) * 256 + 1 * r.val; omega
      | ⟨2, _⟩ => show win1_0.index t (2 : Fin 3) * 1024 + 1 * (Spec.hcol (Spec.headOf d) i).val = (Spec.hcol (Spec.headOf d) i).val; omega
    · show V c main_v2 (((cfg1.win 1).blk t).view.emb (ix3 (0 : Fin 1) s (Spec.hcol (Spec.headOf d) i))) = V c main_v2 _
      refine congrArg (V c main_v2) (funext fun a => Fin.ext ?_)
      match a with
      | ⟨0, _⟩ => show win1_1.index t (0 : Fin 3) * 1 + 1 * 0 = win1_5.index t (0 : Fin 3) * 1 + 1 * 0; omega
      | ⟨1, _⟩ => show win1_1.index t (1 : Fin 3) * 2048 + 1 * s.val = s.val; omega
      | ⟨2, _⟩ => show win1_1.index t (2 : Fin 3) * 1024 + 1 * (Spec.hcol (Spec.headOf d) i).val = 1024 + (Spec.hcol (Spec.headOf d) i).val; omega
    · show V c main_v2 (((cfg1.win 2).blk t).view.emb (ix3 (0 : Fin 1) s (Spec.hcol (Spec.headOf d) i))) = V c main_v2 _
      refine congrArg (V c main_v2) (funext fun a => Fin.ext ?_)
      match a with
      | ⟨0, _⟩ => show win1_2.index t (0 : Fin 3) * 1 + 1 * 0 = win1_5.index t (0 : Fin 3) * 1 + 1 * 0; omega
      | ⟨1, _⟩ => show win1_2.index t (1 : Fin 3) * 2048 + 1 * s.val = s.val; omega
      | ⟨2, _⟩ => show win1_2.index t (2 : Fin 3) * 1024 + 1 * (Spec.hcol (Spec.headOf d) i).val = 2048 + (Spec.hcol (Spec.headOf d) i).val; omega
  · show V c main_v3 (((cfg1.win 3).blk t).view.emb (ix2 d e)) = V c main_v3 _
    refine congrArg (V c main_v3) (funext fun a => Fin.ext ?_)
    match a with
    | ⟨0, _⟩ => show win1_3.index t (0 : Fin 2) * 1024 + 1 * d.val = d.val; omega
    | ⟨1, _⟩ => show win1_3.index t (1 : Fin 2) * 1024 + 1 * e.val = e.val; omega
  · show V c main_v4 (((cfg1.win 4).blk t).view.emb (ix2 (0 : Fin 1) e)) = V c main_v4 _
    refine congrArg (V c main_v4) (funext fun a => Fin.ext ?_)
    match a with
    | ⟨0, _⟩ => show win1_4.index t (0 : Fin 2) * 1 + 1 * 0 = 0; omega
    | ⟨1, _⟩ => show win1_4.index t (1 : Fin 2) * 1024 + 1 * e.val = e.val; omega

/-- An index of the result is in point t's block iff each coordinate is in the block's range on its axis. -/
theorem mem_blk1 (t : Fin cfg1.N) (i : S2x2048x1024.Idx) :
    i ∈ ((cfg1.win 5).blk t).view.set ↔ ∀ a : Fin 3, win1_5.index t a * S1x256x1024.size a ≤ (i a).val ∧ (i a).val < win1_5.index t a * S1x256x1024.size a + S1x256x1024.size a := by
  show i ∈ ((View.whole main_v5).slice (win1_5.rect t)).set ↔ _
  rw [View.set_slice_whole, Rect.mem_set_unit]
  exact Iff.rfl

/-- The 16 blocks cover the result. -/
theorem cover1 (i : S2x2048x1024.Idx) : ∃ t : Fin cfg1.N, (cfg1.win 5).flush t = true ∧ i ∈ ((cfg1.win 5).blk t).view.set := by
  have hi0 : (i 0).val < 2 := (i 0).isLt
  have hi1 : (i 1).val < 2048 := (i 1).isLt
  have hi2 : (i 2).val < 1024 := (i 2).isLt
  obtain ⟨t, ht⟩ := idx1_onto ⟨(i 0).val, by omega⟩ ⟨(i 1).val / 256, by omega⟩
  have q0 : win1_5.index t (0 : Fin 3) = (i 0).val := congrFun ht 0
  have q1 : win1_5.index t (1 : Fin 3) = (i 1).val / 256 := congrFun ht 1
  have q2 : win1_5.index t (2 : Fin 3) = 0 := congrFun ht 2
  refine ⟨t, flush1_5 t, ?_⟩
  rw [mem_blk1]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- The result array after the attention kernel. -/
theorem final1 (c : Dev nD) : (dat1 V c).arrAt 5 cfg1.N = attn1 (V c main_v2) (V c main_v3) (V c main_v4) :=
  (dat1 V c).arrAt_eq_of_cover 5 (attn1 (V c main_v2) (V c main_v3) (V c main_v4)) (fun t _ => flushed1_eq V c t) cover1

end Cert.KernelIdeal.Hand

end
-- ==== Proof.KernelIs.lean ====
/-
  The kernel's program computes the specification.

  The run leaves in the result array what the attention kernel's write-backs leave, a function of the projected
  array, the converted output weights and the bias row as that kernel finds them. The projected array it finds is
  the projection kernel's result [4096, 3072] read as [2, 2048, 3072]: entry (b, s, e) is entry (2048 b + s, e), the
  sum over d of the flattened input (2048 b + s, d), which is input (b, s, d), times the weights (d, e). The
  conversion of the output weights is the identity on the extended reals, and the bias row [1, 1024] holds the
  bias at (0, e). Substituting, the result array is the specification's function of the four arguments.
-/
import proofs.«110760_j64003602645285_2_alg».proof.Proof.Run
import proofs.«110760_j64003602645285_2_alg».proof.Proof.Val0
import proofs.«110760_j64003602645285_2_alg».proof.Proof.Val1
import proofs.«110760_j64003602645285_2_alg».proof.Proof.Spec
import Idealize.ShloMosaic.Lib.StableHlo.Run

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## What the host operations write -/

/-- The flattened input. -/
theorem V1_v0 (c : Dev nD) :
    (V1 m c main_v0 : S4096x1024.Idx → Elt Ideal .f32)
      = shapeCast S4096x1024 (m ((c : Thread nD τ).loc main_arg0)) shapeCasts_S2x2048x1024_S4096x1024 := by
  show StableHlo.after hostOps0 (fun b => m (c, b)) (Proc.devRef .tc main_v0) = _
  after_results <;> rfl

/-- The projection weights are untouched by the reshape. -/
theorem V1_arg1 (c : Dev nD) : (V1 m c main_arg1 : S1024x3072.Idx → Elt Ideal .f32) = m ((c : Thread nD τ).loc main_arg1) := by
  show StableHlo.after hostOps0 (fun b => m (c, b)) (Proc.devRef .tc main_arg1) = _
  after_results <;> rfl

/-- The projected array read as [2, 2048, 3072]. -/
theorem V3_v2 (c : Dev nD) :
    (V3 m c main_v2 : S2x2048x3072.Idx → Elt Ideal .bf16)
      = shapeCast S2x2048x3072 (V2 m c main_v1 : S4096x3072.Idx → Elt Ideal .bf16) shapeCasts_S4096x3072_S2x2048x3072 := by
  show StableHlo.after hostOps1 (W2 m c) (Proc.devRef .tc main_v2) = _
  after_results <;> rfl

/-- The output weights, converted. -/
theorem V3_v3 (c : Dev nD) :
    (V3 m c main_v3 : S1024x1024.Idx → Elt Ideal .bf16)
      = (truncf .bf16 (W2 m c (Proc.devRef .tc main_arg2) : FVec Ideal S1024x1024 .f32) bitsLt_bf16_f32 : FVec Ideal S1024x1024 .bf16) := by
  show StableHlo.after hostOps1 (W2 m c) (Proc.devRef .tc main_v3) = _
  after_results <;> rfl

/-- The bias as a row. -/
theorem V3_v4 (c : Dev nD) :
    (V3 m c main_v4 : S1x1024.Idx → Elt Ideal .f32)
      = shapeCast S1x1024 (W2 m c (Proc.devRef .tc main_arg3) : S1024.Idx → Elt Ideal .f32) shapeCasts_S1024_S1x1024 := by
  show StableHlo.after hostOps1 (W2 m c) (Proc.devRef .tc main_v4) = _
  after_results <;> rfl

/-- The output weights and the bias reach the second stretch as launched: the projection kernel does not write
    them and the first reshape does not either. -/
theorem W2_arg2 (c : Dev nD) : W2 m c (Proc.devRef .tc main_arg2) = m ((c : Thread nD τ).loc main_arg2) := by
  rw [W2_of_ne m c main_arg2 (by decide)]
  show StableHlo.after hostOps0 (fun b => m (c, b)) (Proc.devRef .tc main_arg2) = _
  after_results <;> rfl
theorem W2_arg3 (c : Dev nD) : W2 m c (Proc.devRef .tc main_arg3) = m ((c : Thread nD τ).loc main_arg3) := by
  rw [W2_of_ne m c main_arg3 (by decide)]
  show StableHlo.after hostOps0 (fun b => m (c, b)) (Proc.devRef .tc main_arg3) = _
  after_results <;> rfl

/-- The projection kernel's result array. -/
theorem V2_v1 (c : Dev nD) :
    (V2 m c main_v1 : S4096x3072.Idx → Elt Ideal .bf16) = proj0 (V1 m c main_v0) (V1 m c main_arg1) :=
  (W2_arr m c 2).trans (final0 (V1 m) c)

/-! ## The entries the attention kernel reads -/

/-- The two reshapes around the projection, entry by entry: if a is the input a0 [2, 2048, 1024] read as
    [4096, 1024], p1 the product of a and w, and p3 is p1 [4096, 3072] read as [2, 2048, 3072], then p3 (b, s, e) is
    the sum over d of a0 (b, s, d) · w (d, e): row 2048 b + s of the flat arrays is row (b, s) of the others. -/
theorem projected_aux (a0 : S2x2048x1024.Idx → EReal) (w : S1024x3072.Idx → EReal) (a : S4096x1024.Idx → EReal)
    (p1 : S4096x3072.Idx → EReal) (p3 : S2x2048x3072.Idx → EReal)
    (ha : a = shapeCast S4096x1024 a0 shapeCasts_S2x2048x1024_S4096x1024) (hp1 : p1 = proj0 a w)
    (hp3 : p3 = shapeCast S2x2048x3072 p1 shapeCasts_S4096x3072_S2x2048x3072) (b : Fin 2) (s : Fin 2048) (e : Fin 3072) :
    p3 (ix3 b s e) = Spec.proj a0 w b s e := by
  have hb := b.isLt
  have hs := s.isLt
  have hr : 2048 * b.val + s.val < 4096 := by omega
  subst hp3
  refine (shapeCast_apply p1 shapeCasts_S4096x3072_S2x2048x3072 (ix3 b s e) (ix2 (⟨2048 * b.val + s.val, hr⟩ : Fin 4096) e) (by
    rw [Shape.rowMajor_val_two, Shape.rowMajor_val_three]
    show (2048 * b.val + s.val) * 3072 + e.val = (b.val * 2048 + s.val) * 3072 + e.val
    omega)).trans ?_
  subst hp1
  show (∑ d : Fin 1024, a (ix2 (⟨2048 * b.val + s.val, hr⟩ : Fin 4096) d) * w (ix2 d e)) = _
  unfold Spec.proj
  refine Finset.sum_congr rfl fun d _ => congrArg (fun x : EReal => x * w (ix2 d e)) ?_
  subst ha
  exact shapeCast_apply a0 shapeCasts_S2x2048x1024_S4096x1024 _ (ix3 b s d) (by
    rw [Shape.rowMajor_val_three, Shape.rowMajor_val_two]
    show (b.val * 2048 + s.val) * 1024 + d.val = (2048 * b.val + s.val) * 1024 + d.val
    omega)

/-- Entry (b, s, e) of the projected array is the specification's projection of the input. -/
theorem projected_apply (c : Dev nD) (b : Fin 2) (s : Fin 2048) (e : Fin 3072) :
    (V3 m c main_v2 : S2x2048x3072.Idx → Elt Ideal .bf16) (ix3 b s e)
      = Spec.proj (m ((c : Thread nD τ).loc main_arg0)) (m ((c : Thread nD τ).loc main_arg1)) b s e :=
  projected_aux (m ((c : Thread nD τ).loc main_arg0)) (m ((c : Thread nD τ).loc main_arg1)) (V1 m c main_v0) (V2 m c main_v1)
    (V3 m c main_v2) (V1_v0 m c) ((V2_v1 m c).trans (congrArg (proj0 (V1 m c main_v0)) (V1_arg1 m c))) (V3_v2 m c) b s e

/-- The converted output weights are the output weights. -/
theorem wout_apply (c : Dev nD) (d e : Fin 1024) :
    (V3 m c main_v3 : S1024x1024.Idx → Elt Ideal .bf16) (ix2 d e) = (m ((c : Thread nD τ).loc main_arg2) : S1024x1024.Idx → Elt Ideal .f32) (ix2 d e) := by
  rw [V3_v3, truncf_apply, W2_arg2]

/-- The bias row at (0, e) is the bias at e. -/
theorem bias_apply (c : Dev nD) (e : Fin 1024) :
    (V3 m c main_v4 : S1x1024.Idx → Elt Ideal .f32) (ix2 (0 : Fin 1) e) = (m ((c : Thread nD τ).loc main_arg3) : S1024.Idx → Elt Ideal .f32) (ix1 e) := by
  rw [V3_v4, W2_arg3]
  exact shapeCast_apply _ shapeCasts_S1024_S1x1024 _ (ix1 e) (by
    rw [Shape.rowMajor_val_one, Shape.rowMajor_val_two]
    show e.val = 0 * 1024 + e.val
    omega)

/-! ## The result -/

/-- After the run the result array holds the specification's function of the four argument arrays. -/
theorem kernel_is_spec (c : Dev nD) :
    (W4 m c (Proc.devRef .tc main_v5) : S2x2048x1024.Idx → Elt Ideal .f32)
      = Spec.out (m ((c : Thread nD τ).loc main_arg0)) (m ((c : Thread nD τ).loc main_arg1))
          (m ((c : Thread nD τ).loc main_arg2)) (m ((c : Thread nD τ).loc main_arg3)) := by
  rw [W4_out, final1]
  funext i
  obtain ⟨b, s, e, rfl⟩ : ∃ (b : Fin 2) (s : Fin 2048) (e : Fin 1024), i = ix3 b s e := ⟨i 0, i 1, i 2, eq_ix3 i⟩
  unfold attn1 Spec.out
  have hp : (fun b s e => (V3 m c main_v2 : S2x2048x3072.Idx → Elt Ideal .bf16) (ix3 b s e))
      = Spec.proj (m ((c : Thread nD τ).loc main_arg0)) (m ((c : Thread nD τ).loc main_arg1)) :=
    funext fun b => funext fun s => funext fun e => projected_apply m c b s e
  rw [hp]
  refine congrArg₂ (fun x y => (x + y : EReal)) (Finset.sum_congr rfl fun d _ => congrArg₂ (fun x y => (x * y : EReal)) rfl ?_) ?_
  · exact wout_apply m c d e
  · exact bias_apply m c e

end Cert.KernelIdeal.Hand

end
-- ==== Proof.RefIs.lean ====
import proofs.«110760_j64003602645285_2_alg».proof.Proof.Gen.ReferenceIdeal.Read
import proofs.«110760_j64003602645285_2_alg».proof.Proof.Spec

/-
  The reference program computes the specification.

  The reference's last stage, read at an index (b, s, e), is unfolded stage by stage, outermost first, down to the
  arguments. Three kinds of step occur. A LAYOUT stage (slice, reshape, transpose, broadcast) reads its operand at
  an index computed from the result's; each such index is identified once with an index written by its coordinates,
  the only arithmetic being that position 64 h + j of a row of 1024 is coordinate j of head h, and back
  (c / 64, c % 64). A CONTRACTION is the sum over its one contracted axis of the products of the operands. The
  SOFTMAX is spelt by the reference as: divide the scores by sqrt 64, take the row's maximum from -inf and once more
  against -inf, subtract, exponentiate, sum from 0, divide. Dividing by sqrt 64 = 8 is multiplying by 1/8 on every
  extended real, the sum from 0 is the sum, and the rest is the specification's `soft` word for word.
-/

noncomputable section

open scoped BigOperators

namespace Cert.ReferenceIdeal.RefIs

open Cert.ReferenceIdeal Cert.ReferenceIdeal.Gen Cert.ReferenceIdeal.Read Idealize.ShloMosaic Idealize.ShloMosaic.ValueIdx

/-- The input x as an array of extended reals, -/
abbrev X0 := (⟨S2x2048x1024, .f32⟩ : BufTy).Contents (Elt Ideal)
/-- and the projection matrix w_qkv. -/
abbrev X1 := (⟨S1024x3072, .f32⟩ : BufTy).Contents (Elt Ideal)

/-! ## The three constants -/

/-- The word 0x42800000 is the real 64. -/
theorem ofBits_64 : Ideal.ofBits .f32 0x42800000#32 = ((64 : ℝ) : EReal) := by
  simp [Ideal.ofBits, Ideal.ieee, -EReal.coe_mul]; norm_num

/-- The word 0x3E000000 is the real 1/8. -/
theorem ofBits_eighth : Ideal.ofBits .f32 0x3E000000#32 = ((1 / 8 : ℝ) : EReal) := by
  simp [Ideal.ofBits, Ideal.ieee, -EReal.coe_mul]; norm_num

/-- The square root of 64 is 8: 64 = 8², and 8 is not negative. -/
theorem sqrt_64 : Ideal.sqrt (Ideal.ofBits .f32 0x42800000#32) = ((8 : ℝ) : EReal) := by
  rw [ofBits_64, Ideal.sqrt_coe, if_neg (by norm_num)]
  have h : Real.sqrt 64 = 8 := by
    rw [show (64 : ℝ) = 8 ^ 2 by norm_num]
    exact Real.sqrt_sq (by norm_num)
  rw [h]

/-- Dividing by the square root of 64 is multiplying by 1/8, for every extended real a (the infinities included:
    8 is a real other than zero, so the quotient is the product with its reciprocal). -/
theorem div_sqrt64 (a : EReal) :
    Ideal.div a (Ideal.sqrt (Ideal.ofBits .f32 0x42800000#32)) = a * Spec.eighth := by
  rw [sqrt_64, Ideal.div_coe (by norm_num : (8 : ℝ) ≠ 0)]
  show a * ((1 / 8 : ℝ) : EReal) = a * Ideal.ofBits .f32 0x3E000000#32
  rw [ofBits_eighth]

/-! ## Indices by coordinates

Each stage's operand index, at a result index written by its coordinates, is again an index written by
coordinates. All but two hold coordinate by coordinate by computation; the two reshapes need the arithmetic of
row-major positions. -/

section Indices
variable (b : Fin 2) (h : Fin 16) (s t : Fin 2048) (j : Fin 64) (c : Fin 1024) (e : Fin 3072)

/-- The projection at (b, s, e) multiplies x at (b, s, k) by w_qkv at (k, e). -/
theorem proj_lhs (k : Fin 1024) : lidx_main_v0 (ix3 b s e) k = ix3 b s k :=
  funext fun a => match a with | ⟨0, _⟩ => rfl | ⟨1, _⟩ => rfl | ⟨2, _⟩ => rfl
theorem proj_rhs (k : Fin 1024) : ridx_main_v0 (ix3 b s e) k = ix2 k e :=
  funext fun a => match a with | ⟨0, _⟩ => rfl | ⟨1, _⟩ => rfl

/-- Column c of the query third is column c of the projected array, -/
theorem slice_q : idx_main_v1 (ix3 b s c) = ix3 b s (Spec.colQ c) :=
  funext fun a => match a with | ⟨0, _⟩ => rfl | ⟨1, _⟩ => rfl | ⟨2, _⟩ => rfl
/-- of the key third column 1024 + c, -/
theorem slice_k : idx_main_v2 (ix3 b s c) = ix3 b s (Spec.colK c) :=
  funext fun a => match a with | ⟨0, _⟩ => rfl | ⟨1, _⟩ => rfl | ⟨2, _⟩ => rfl
/-- of the value third column 2048 + c. -/
theorem slice_v : idx_main_v3 (ix3 b s c) = ix3 b s (Spec.colV c) :=
  funext fun a => match a with | ⟨0, _⟩ => rfl | ⟨1, _⟩ => rfl | ⟨2, _⟩ => rfl

/-- Entry (b, s, h, j) of a third reshaped to [2, 2048, 16, 64] is its entry (b, s, 64 h + j): both sit at row-major
    position ((b · 2048 + s) · 16 + h) · 64 + j = (b · 2048 + s) · 1024 + (64 h + j), and 64 h + j < 1024. -/
theorem split_q : idx_main_v4 (ix4 b s h j) = ix3 b s (Spec.hcol h j) :=
  funext fun a => Fin.ext (by
    have hb := b.isLt; have hs := s.isLt; have hh := h.isLt; have hj := j.isLt
    match a with
    | ⟨0, _⟩ => show (((b.val * 2048 + s.val) * 16 + h.val) * 64 + j.val) / 2097152 = b.val; omega
    | ⟨1, _⟩ => show (((b.val * 2048 + s.val) * 16 + h.val) * 64 + j.val) / 1024 % 2048 = s.val; omega
    | ⟨2, _⟩ => show (((b.val * 2048 + s.val) * 16 + h.val) * 64 + j.val) % 1024 = 64 * h.val + j.val; omega)
theorem split_k : idx_main_v6 (ix4 b s h j) = ix3 b s (Spec.hcol h j) := split_q b h s j
theorem split_v : idx_main_v8 (ix4 b s h j) = ix3 b s (Spec.hcol h j) := split_q b h s j

/-- The transpose [2, 2048, 16, 64] → [2, 16, 2048, 64] exchanges the row and the head. -/
theorem swap_q : idx_main_v5 (ix4 b h s j) = ix4 b s h j :=
  funext fun a => match a with | ⟨0, _⟩ => rfl | ⟨1, _⟩ => rfl | ⟨2, _⟩ => rfl | ⟨3, _⟩ => rfl
theorem swap_k : idx_main_v7 (ix4 b h s j) = ix4 b s h j :=
  funext fun a => match a with | ⟨0, _⟩ => rfl | ⟨1, _⟩ => rfl | ⟨2, _⟩ => rfl | ⟨3, _⟩ => rfl
theorem swap_v : idx_main_v9 (ix4 b h s j) = ix4 b s h j :=
  funext fun a => match a with | ⟨0, _⟩ => rfl | ⟨1, _⟩ => rfl | ⟨2, _⟩ => rfl | ⟨3, _⟩ => rfl

/-- The score at (b, h, s, t) multiplies the query at (b, h, s, i) by the key at (b, h, t, i). -/
theorem score_lhs (i : Fin 64) : lidx_main_v10 (ix4 b h s t) i = ix4 b h s i :=
  funext fun a => match a with | ⟨0, _⟩ => rfl | ⟨1, _⟩ => rfl | ⟨2, _⟩ => rfl | ⟨3, _⟩ => rfl
theorem score_rhs (i : Fin 64) : ridx_main_v10 (ix4 b h s t) i = ix4 b h t i :=
  funext fun a => match a with | ⟨0, _⟩ => rfl | ⟨1, _⟩ => rfl | ⟨2, _⟩ => rfl | ⟨3, _⟩ => rfl

/-- The row's maximum, and the row's sum, kept as a column of width one and then repeated along the row: entry
    (b, h, s, t) reads the reduced array at (b, h, s). -/
theorem keep_max : idx_main_v17 (idx_main_v18 (ix4 b h s t)) = ix3 b h s :=
  funext fun a => match a with | ⟨0, _⟩ => rfl | ⟨1, _⟩ => rfl | ⟨2, _⟩ => rfl
theorem keep_sum : idx_main_v22 (idx_main_v23 (ix4 b h s t)) = ix3 b h s :=
  funext fun a => match a with | ⟨0, _⟩ => rfl | ⟨1, _⟩ => rfl | ⟨2, _⟩ => rfl

/-- The reduced index (b, h, s) with the key row t put back on the reduced axis is (b, h, s, t): for the maximum, -/
theorem max_src (hr : S2x16x2048x2048.Reduces [3] S2x16x2048) : hr.lift (ix3 b h s) t = ix4 b h s t :=
  funext fun a => Fin.ext (by
    match a with | ⟨0, _⟩ => rfl | ⟨1, _⟩ => rfl | ⟨2, _⟩ => rfl | ⟨3, _⟩ => rfl)
/-- and for the sum. -/
theorem sum_src : idx_main_v21 (ix3 b h s) t = ix4 b h s t :=
  funext fun a => match a with | ⟨0, _⟩ => rfl | ⟨1, _⟩ => rfl | ⟨2, _⟩ => rfl | ⟨3, _⟩ => rfl

/-- The head's result at (b, h, s, j) multiplies the weight at (b, h, s, t) by the value at (b, h, t, j). -/
theorem head_lhs : lidx_main_v25 (ix4 b h s j) t = ix4 b h s t :=
  funext fun a => match a with | ⟨0, _⟩ => rfl | ⟨1, _⟩ => rfl | ⟨2, _⟩ => rfl | ⟨3, _⟩ => rfl
theorem head_rhs : ridx_main_v25 (ix4 b h s j) t = ix4 b h t j :=
  funext fun a => match a with | ⟨0, _⟩ => rfl | ⟨1, _⟩ => rfl | ⟨2, _⟩ => rfl | ⟨3, _⟩ => rfl

/-- The transpose back exchanges the head and the row again. -/
theorem swap_back : idx_main_v26 (ix4 b s h j) = ix4 b h s j :=
  funext fun a => match a with | ⟨0, _⟩ => rfl | ⟨1, _⟩ => rfl | ⟨2, _⟩ => rfl | ⟨3, _⟩ => rfl

/-- Entry (b, s, c) of the array reshaped back to [2, 2048, 1024] is entry (b, s, c / 64, c % 64) of the
    [2, 2048, 16, 64] one: position (b · 2048 + s) · 1024 + c, with c = 64 (c / 64) + c % 64 and c / 64 < 16. -/
theorem merge : idx_main_v27 (ix3 b s c) = ix4 b s (Spec.headOf c) (Spec.coordOf c) :=
  funext fun a => Fin.ext (by
    have hb := b.isLt; have hs := s.isLt; have hc := c.isLt
    match a with
    | ⟨0, _⟩ => show ((b.val * 2048 + s.val) * 1024 + c.val) / 2097152 = b.val; omega
    | ⟨1, _⟩ => show ((b.val * 2048 + s.val) * 1024 + c.val) / 1024 % 2048 = s.val; omega
    | ⟨2, _⟩ => show ((b.val * 2048 + s.val) * 1024 + c.val) / 64 % 16 = c.val / 64; omega
    | ⟨3, _⟩ => show ((b.val * 2048 + s.val) * 1024 + c.val) % 64 = c.val % 64; omega)

/-- The output projection at (b, s, d) multiplies the attention array at (b, s, k) by w_out at (k, d), -/
theorem out_lhs (d k : Fin 1024) : lidx_main_v28 (ix3 b s d) k = ix3 b s k :=
  funext fun a => match a with | ⟨0, _⟩ => rfl | ⟨1, _⟩ => rfl | ⟨2, _⟩ => rfl
theorem out_rhs (d k : Fin 1024) : ridx_main_v28 (ix3 b s d) k = ix2 k d :=
  funext fun a => match a with | ⟨0, _⟩ => rfl | ⟨1, _⟩ => rfl
/-- and the bias repeated over batch entries and rows reads b_out at d. -/
theorem bias_src (d : Fin 1024) : idx_main_v29 (idx_main_v30 (ix3 b s d)) = ix1 d :=
  funext fun a => match a with | ⟨0, _⟩ => rfl

end Indices

/-! ## The stages, from the arguments up -/

section Stages
variable (x0 : X0) (x1 : X1) (b : Fin 2) (h : Fin 16) (s t : Fin 2048) (j : Fin 64) (c : Fin 1024) (e : Fin 3072)

/-- The first contraction is the projection x · w_qkv. -/
theorem proj_at : val_main_v0 (F := Ideal) x0 x1 (ix3 b s e) = Spec.proj x0 x1 b s e := by
  rw [val_main_v0_apply]
  unfold Spec.proj
  refine Finset.sum_congr rfl fun k _ => ?_
  rw [proj_lhs, proj_rhs]

/-- Coordinate j of head h of query row s: slice, reshape, transpose read the projected array at column 64 h + j
    of the query third; -/
theorem q_at : val_main_v5 (F := Ideal) x0 x1 (ix4 b h s j) = Spec.proj x0 x1 b s (Spec.colQ (Spec.hcol h j)) := by
  rw [val_main_v5_apply, swap_q, val_main_v4_apply, split_q, val_main_v1_apply, slice_q, proj_at]
/-- of key row s, of the key third; -/
theorem k_at : val_main_v7 (F := Ideal) x0 x1 (ix4 b h s j) = Spec.proj x0 x1 b s (Spec.colK (Spec.hcol h j)) := by
  rw [val_main_v7_apply, swap_k, val_main_v6_apply, split_k, val_main_v2_apply, slice_k, proj_at]
/-- of value row s, of the value third. -/
theorem v_at : val_main_v9 (F := Ideal) x0 x1 (ix4 b h s j) = Spec.proj x0 x1 b s (Spec.colV (Spec.hcol h j)) := by
  rw [val_main_v9_apply, swap_v, val_main_v8_apply, split_v, val_main_v3_apply, slice_v, proj_at]

/-- The row of scores of query row s of head h of batch entry b against the 2048 key rows: the inner product over the
    head's 64 coordinates, times 1/8. -/
def scoreRow : Fin 2048 → EReal := fun t =>
  (∑ i : Fin 64, Spec.proj x0 x1 b s (Spec.colQ (Spec.hcol h i)) * Spec.proj x0 x1 b t (Spec.colK (Spec.hcol h i)))
    * Spec.eighth

/-- The second contraction is the inner product of query row s and key row t over the head's coordinates. -/
theorem dot_at : val_main_v10 (F := Ideal) x0 x1 (ix4 b h s t)
    = ∑ i : Fin 64, Spec.proj x0 x1 b s (Spec.colQ (Spec.hcol h i)) * Spec.proj x0 x1 b t (Spec.colK (Spec.hcol h i)) := by
  rw [val_main_v10_apply]
  refine Finset.sum_congr rfl fun i _ => ?_
  rw [score_lhs, score_rhs, q_at, k_at]

/-- The divisor, repeated over the whole score array, is the square root of the constant 64. -/
theorem scale_at (i : S2x16x2048x2048.Idx) :
    val_main_v12 (F := Ideal) i = Ideal.sqrt (Ideal.ofBits .f32 0x42800000#32) := by
  rw [val_main_v12_apply]; rfl

/-- The scaled score: the inner product divided by sqrt 64, which is the inner product times 1/8. -/
theorem score_at : val_main_v13 (F := Ideal) x0 x1 (ix4 b h s t) = scoreRow x0 x1 b h s t := by
  rw [val_main_v13_apply, scale_at, dot_at]
  exact div_sqrt64 _

/-- The reduction by maximum along the key rows, from -inf: max is commutative and associative, so the reduction
    at (b, h, s) is the fold of max from -inf over the row's 2048 entries, in any order. -/
theorem fold_at : val_main_v14 (F := Ideal) x0 x1 (ix3 b h s)
    = (Finset.univ : Finset (Fin 2048)).fold max Spec.negInf (scoreRow x0 x1 b h s) := by
  have hr : S2x16x2048x2048.Reduces [3] S2x16x2048 := by decide
  unfold val_main_v14
  refine (Host.reduce_eq_fold_single (FloatOps.maximumf (F := Ideal) (φ := .f32)) (val_main_v13 (F := Ideal) x0 x1)
    (val_main_cst_0 (F := Ideal)) reducesTo_S2x16x2048x2048_S2x16x2048_d3 hr h_S_ (ix3 b h s)).trans ?_
  show (Finset.univ : Finset (Fin 2048)).fold max Spec.negInf
    (fun t => val_main_v13 (F := Ideal) x0 x1 (hr.lift (ix3 b h s) t)) = _
  refine Finset.fold_congr fun (t : Fin 2048) _ => ?_
  exact (congrArg (val_main_v13 (F := Ideal) x0 x1) (max_src b h s t hr)).trans (score_at x0 x1 b h s t)

/-- The maximum once more against -inf: the specification's row maximum. -/
theorem max_at : val_main_v16 (F := Ideal) x0 x1 (ix3 b h s) = Spec.rowMax (scoreRow x0 x1 b h s) := by
  rw [val_main_v16_apply, val_main_v15_apply, fold_at]
  rfl

/-- Repeated along the row. -/
theorem rowmax_at : val_main_v18 (F := Ideal) x0 x1 (ix4 b h s t) = Spec.rowMax (scoreRow x0 x1 b h s) := by
  rw [val_main_v18_apply, val_main_v17_apply, keep_max, max_at]

/-- The exponential of the score less the row's maximum. -/
theorem exp_at : val_main_v20 (F := Ideal) x0 x1 (ix4 b h s t)
    = Ideal.exp (scoreRow x0 x1 b h s t - Spec.rowMax (scoreRow x0 x1 b h s)) := by
  rw [val_main_v20_apply, val_main_v19_apply, score_at, rowmax_at]
  rfl

/-- The reduction by sum along the key rows from the word 0: zero plus the sum, which is the sum. -/
theorem sum_at : val_main_v21 (F := Ideal) x0 x1 (ix3 b h s)
    = ∑ u : Fin 2048, Ideal.exp (scoreRow x0 x1 b h s u - Spec.rowMax (scoreRow x0 x1 b h s)) := by
  rw [val_main_v21_apply]
  show Ideal.ofBits .f32 0x00000000#32 + _ = _
  rw [Ideal.ofBits_zero_f32, zero_add]
  refine Finset.sum_congr rfl fun u _ => ?_
  rw [sum_src, exp_at]

/-- Repeated along the row. -/
theorem rowsum_at : val_main_v23 (F := Ideal) x0 x1 (ix4 b h s t)
    = ∑ u : Fin 2048, Ideal.exp (scoreRow x0 x1 b h s u - Spec.rowMax (scoreRow x0 x1 b h s)) := by
  rw [val_main_v23_apply, val_main_v22_apply, keep_sum, sum_at]

/-- The quotient is the specification's softmax weight of entry t of the row. -/
theorem soft_at : val_main_v24 (F := Ideal) x0 x1 (ix4 b h s t) = Spec.soft (scoreRow x0 x1 b h s) t := by
  rw [val_main_v24_apply, exp_at, rowsum_at]
  rfl

/-- The third contraction averages the head's value rows by the weights: the specification's head row, of the
    query's, the keys' and the values' coordinates read off the projected array. -/
theorem head_at : val_main_v25 (F := Ideal) x0 x1 (ix4 b h s j)
    = Spec.headRow (fun i => Spec.proj x0 x1 b s (Spec.colQ (Spec.hcol h i)))
        (fun t i => Spec.proj x0 x1 b t (Spec.colK (Spec.hcol h i)))
        (fun t i => Spec.proj x0 x1 b t (Spec.colV (Spec.hcol h i))) j := by
  rw [val_main_v25_apply]
  show _ = ∑ t : Fin 2048, Spec.soft (scoreRow x0 x1 b h s) t * Spec.proj x0 x1 b t (Spec.colV (Spec.hcol h j))
  refine Finset.sum_congr rfl fun t _ => ?_
  rw [head_lhs, head_rhs, soft_at, v_at]

/-- Transposed back and reshaped to [2, 2048, 1024]: column c holds coordinate c % 64 of head c / 64, the
    specification's attention array. -/
theorem attn_at : val_main_v27 (F := Ideal) x0 x1 (ix3 b s c) = Spec.attn (Spec.proj x0 x1) b s c := by
  rw [val_main_v27_apply, merge, val_main_v26_apply, swap_back, head_at]
  rfl

end Stages

/-- THE REFERENCE IS THE SPECIFICATION: at every index (b, s, e) the reference's result is the attention array's row
    (b, s) times column e of w_out, plus the bias at e. -/
theorem ref_is_spec (x0 : (⟨Cert.ReferenceIdeal.S2x2048x1024, .f32⟩ : BufTy).Contents (Elt Ideal))
    (x1 : (⟨Cert.ReferenceIdeal.S1024x3072, .f32⟩ : BufTy).Contents (Elt Ideal))
    (x2 : (⟨Cert.ReferenceIdeal.S1024x1024, .f32⟩ : BufTy).Contents (Elt Ideal))
    (x3 : (⟨Cert.ReferenceIdeal.S1024, .f32⟩ : BufTy).Contents (Elt Ideal)) :
    Cert.ReferenceIdeal.Read.val_main_v31 (F := Ideal) x0 x1 x2 x3 = Cert.Spec.out x0 x1 x2 x3 := by
  funext i
  obtain ⟨b, s, e, rfl⟩ : ∃ (b : Fin 2) (s : Fin 2048) (e : Fin 1024), i = ix3 b s e := ⟨i 0, i 1, i 2, eq_ix3 i⟩
  rw [val_main_v31_apply, val_main_v28_apply, val_main_v30_apply, val_main_v29_apply, bias_src]
  show (∑ k : Fin 1024, val_main_v27 (F := Ideal) x0 x1 (lidx_main_v28 (ix3 b s e) k) * x2 (ridx_main_v28 (ix3 b s e) k))
      + x3 (ix1 e)
    = (∑ d : Fin 1024, Spec.attn (Spec.proj x0 x1) b s d * x2 (ix2 d e)) + x3 (ix1 e)
  refine congrArg (· + x3 (ix1 e)) (Finset.sum_congr rfl fun d _ => ?_)
  rw [out_lhs, out_rhs, attn_at]

end Cert.ReferenceIdeal.RefIs

end
-- ==== Proof.lean ====
/-
  The certificate's claims.

  Both printings of the kernel's program run to the end without a fault and leave every buffer that is not private
  to a kernel at contents that are followed stretch by stretch (Run.lean, once per printing); at an argument array
  those contents are the launch contents (Args.lean), which is each program's frame. The reference is a straight
  line of host operations, and its frame is its run with the result dropped. The idealization rewrote nothing, so
  it is the program's own text read on the extended reals. For the value: the kernel program's result array ends
  holding the specification's function of the four arguments (KernelIs.lean), the reference's result is the same
  function (RefIs.lean), and the two memories agree on the arguments; the two sides meet in one law, that dividing
  an extended real by sqrt 64 is multiplying it by 1/8.
-/
import proofs.«110760_j64003602645285_2_alg».proof.Defs
import proofs.«110760_j64003602645285_2_alg».proof.Proof.Gen.Kernel
import proofs.«110760_j64003602645285_2_alg».proof.Proof.Gen.KernelIdeal
import proofs.«110760_j64003602645285_2_alg».proof.Proof.Gen.ReferenceIdeal
import proofs.«110760_j64003602645285_2_alg».proof.Proof.Gen.Pre_finite_inputs
import proofs.«110760_j64003602645285_2_alg».proof.Proof.Gen.ReferenceIdeal.Run
import proofs.«110760_j64003602645285_2_alg».proof.Proof.Gen.ReferenceIdeal.Read
import proofs.«110760_j64003602645285_2_alg».proof.Proof.Bits.Args
import proofs.«110760_j64003602645285_2_alg».proof.Proof.Args
import proofs.«110760_j64003602645285_2_alg».proof.Proof.KernelIs
import proofs.«110760_j64003602645285_2_alg».proof.Proof.RefIs
import Idealize.ShloMosaic.Adequacy
import Idealize.ShloMosaic.Init

noncomputable section

namespace Cert.Proof

open Idealize.ShloMosaic Idealize.ShloMosaic.TcCoe Idealize.SL.Sem

/-- The word-level program runs, and its arguments end as launched. -/
theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.W4_arg0 m c),
     (h c _ (Cert.Kernel.Hand.mem_uc Cert.Kernel.main_arg1 (by decide))).trans (Cert.Kernel.Hand.W4_arg1 m c),
     (h c _ (Cert.Kernel.Hand.mem_uc Cert.Kernel.main_arg2 (by decide))).trans (Cert.Kernel.Hand.W4_arg2 m c),
     (h c _ (Cert.Kernel.Hand.mem_uc Cert.Kernel.main_arg3 (by decide))).trans (Cert.Kernel.Hand.W4_arg3 m c)⟩)
    (Cert.Kernel.Hand.run_all (F := Bits) m ρ)

/-- The idealized program runs, and its arguments end as launched. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_arg0 m c),
     (h c _ (Cert.KernelIdeal.Hand.mem_uc Cert.KernelIdeal.main_arg1 (by decide))).trans (Cert.KernelIdeal.Hand.W4_arg1 m c),
     (h c _ (Cert.KernelIdeal.Hand.mem_uc Cert.KernelIdeal.main_arg2 (by decide))).trans (Cert.KernelIdeal.Hand.W4_arg2 m c),
     (h c _ (Cert.KernelIdeal.Hand.mem_uc Cert.KernelIdeal.main_arg3 (by decide))).trans (Cert.KernelIdeal.Hand.W4_arg3 m c)⟩)
    (Cert.KernelIdeal.Hand.run_all (F := Ideal) m ρ)

/-- The reference runs, and its arguments end as launched: its run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- On the extended reals both programs end with the specification's function of the arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v5 (by decide))).trans (Cert.KernelIdeal.Hand.kernel_is_spec m c),
       (h c _ (Cert.KernelIdeal.Hand.mem_uc Cert.KernelIdeal.main_arg0 (by decide))).trans (Cert.KernelIdeal.Hand.W4_arg0 m c),
       (h c _ (Cert.KernelIdeal.Hand.mem_uc Cert.KernelIdeal.main_arg1 (by decide))).trans (Cert.KernelIdeal.Hand.W4_arg1 m c),
       (h c _ (Cert.KernelIdeal.Hand.mem_uc Cert.KernelIdeal.main_arg2 (by decide))).trans (Cert.KernelIdeal.Hand.W4_arg2 m c),
       (h c _ (Cert.KernelIdeal.Hand.mem_uc Cert.KernelIdeal.main_arg3 (by decide))).trans (Cert.KernelIdeal.Hand.W4_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefIs.ref_is_spec,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
